-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12000x500 : Shape := ⟨2, ![12000, 500]⟩
abbrev S2x384000 : Shape := ⟨2, ![2, 384000]⟩
abbrev S500x16 : Shape := ⟨2, ![500, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S12000x500 : S_.BroadcastsInDim S12000x500 (![] : Fin 0 → Fin S12000x500.rank)
  reducesTo_S12000x500_S_d0_1 : S12000x500.ReducesTo [0, 1] S_
  h_S_ : 0 < S_.numel
  bcast_S_S500x16 : S_.BroadcastsInDim S500x16 (![] : Fin 0 → Fin S500x16.rank)
  reducesTo_S500x16_S_d0_1 : S500x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S12000x500 .f32) (main_arg1 : IVec S2x384000 32) (main_arg2 : FVec F S500x16 .f32) (main_arg3 : FVec F S16 .f32) (main_arg4 : FVec F S16x7 .f32) (main_arg5 : FVec F S7 .f32) : IVec S_ 1 :=
  let main_v0 : FVec F S12000x500 .f32 := Host.absf main_arg0
  let main_cst : FVec F S_ .f32 := constant S_ .f32 0x7F800000#32
  let main_v1 : FVec F S12000x500 .f32 := broadcastInDim S12000x500 ![] bcast_S_S12000x500 main_cst
  let main_v2 : IVec S12000x500 1 := cmpf .olt main_v0 main_v1
  let main_c : IVec S_ 1 := constantI S_ 1 1#1
  let main_v3 : IVec S_ 1 := (fun x v => Host.reduce IntOp.andi x v reducesTo_S12000x500_S_d0_1 h_S_) main_v2 main_c
  let main_v4 : FVec F S500x16 .f32 := Host.absf main_arg2
  let main_cst_0 : FVec F S_ .f32 := constant S_ .f32 0x7F800000#32
  let main_v5 : FVec F S500x16 .f32 := broadcastInDim S500x16 ![] bcast_S_S500x16 main_cst_0
  let main_v6 : IVec S500x16 1 := cmpf .olt main_v4 main_v5
  let main_c_1 : IVec S_ 1 := constantI S_ 1 1#1
  let main_v7 : IVec S_ 1 := (fun x v => Host.reduce IntOp.andi x v reducesTo_S500x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S12000x500 : Shape := ⟨2, ![12000, 500]⟩
abbrev S2x384000 : Shape := ⟨2, ![2, 384000]⟩
abbrev S500x16 : Shape := ⟨2, ![500, 16]⟩
abbrev S16 : Shape := ⟨1, ![16]⟩
abbrev S16x7 : Shape := ⟨2, ![16, 7]⟩
abbrev S7 : Shape := ⟨1, ![7]⟩
abbrev S12000 : Shape := ⟨1, ![12000]⟩
abbrev S1x384000 : Shape := ⟨2, ![1, 384000]⟩
abbrev S384000 : Shape := ⟨1, ![384000]⟩
abbrev S396000 : Shape := ⟨1, ![396000]⟩
abbrev S_ : Shape := ⟨0, ![]⟩
abbrev S396000x1 : Shape := ⟨2, ![396000, 1]⟩
abbrev S12000x16 : Shape := ⟨2, ![12000, 16]⟩
abbrev S396000x16 : Shape := ⟨2, ![396000, 16]⟩
abbrev S1x16 : Shape := ⟨2, ![1, 16]⟩
abbrev S12000x7 : Shape := ⟨2, ![12000, 7]⟩
abbrev S396000x7 : Shape := ⟨2, ![396000, 7]⟩
abbrev S1x7 : Shape := ⟨2, ![1, 7]⟩
abbrev S12000x1 : Shape := ⟨2, ![12000, 1]⟩
abbrev S12000x12000 : Shape := ⟨2, ![12000, 12000]⟩
abbrev S2048x7 : Shape := ⟨2, ![2048, 7]⟩
abbrev S2048x2048 : Shape := ⟨2, ![2048, 2048]⟩

abbrev nBuf : Space → Nat
  | .hbm => 108
  | .vmem => 6
  | .smem => 0
  | _ => 0

abbrev bufTy : (tb : Table) → Fin (tcTables nBuf tb) → BufTy
  | .hbm, ⟨0, _⟩ => ⟨S12000x500, .f32⟩
  | .hbm, ⟨1, _⟩ => ⟨S2x384000, .i32⟩
  | .hbm, ⟨2, _⟩ => ⟨S500x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S12000, .i32⟩
  | .hbm, ⟨7, _⟩ => ⟨S1x384000, .i32⟩
  | .hbm, ⟨8, _⟩ => ⟨S384000, .i32⟩
  | .hbm, ⟨9, _⟩ => ⟨S396000, .i32⟩
  | .hbm, ⟨10, _⟩ => ⟨S1x384000, .i32⟩
  | .hbm, ⟨11, _⟩ => ⟨S384000, .i32⟩
  | .hbm, ⟨12, _⟩ => ⟨S396000, .i32⟩
  | .hbm, ⟨13, _⟩ => ⟨S_, .f32⟩
  | .hbm, ⟨14, _⟩ => ⟨S396000, .f32⟩
  | .hbm, ⟨15, _⟩ => ⟨S_, .f32⟩
  | .hbm, ⟨16, _⟩ => ⟨S12000, .f32⟩
  | .hbm, ⟨17, _⟩ => ⟨S396000x1, .i32⟩
  | .hbm, ⟨18, _⟩ => ⟨S12000, .f32⟩
  | .hbm, ⟨19, _⟩ => ⟨S_, .f32⟩
  | .hbm, ⟨20, _⟩ => ⟨S12000, .f32⟩
  | .hbm, ⟨21, _⟩ => ⟨S12000, .i1⟩
  | .hbm, ⟨22, _⟩ => ⟨S_, .f32⟩
  | .hbm, ⟨23, _⟩ => ⟨S12000, .f32⟩
  | .hbm, ⟨24, _⟩ => ⟨S12000, .f32⟩
  | .hbm, ⟨25, _⟩ => ⟨S12000, .f32⟩
  | .hbm, ⟨26, _⟩ => ⟨S_, .f32⟩
  | .hbm, ⟨27, _⟩ => ⟨S_, .f32⟩
  | .hbm, ⟨28, _⟩ => ⟨S12000, .f32⟩
  | .hbm, ⟨29, _⟩ => ⟨S12000, .f32⟩
  | .hbm, ⟨30, _⟩ => ⟨S_, .i32⟩
  | .hbm, ⟨31, _⟩ => ⟨S396000, .i32⟩
  | .hbm, ⟨32, _⟩ => ⟨S396000, .i1⟩
  | .hbm, ⟨33, _⟩ => ⟨S_, .i32⟩
  | .hbm, ⟨34, _⟩ => ⟨S396000, .i32⟩
  | .hbm, ⟨35, _⟩ => ⟨S396000, .i32⟩
  | .hbm, ⟨36, _⟩ => ⟨S396000, .i32⟩
  | .hbm, ⟨37, _⟩ => ⟨S396000x1, .i32⟩
  | .hbm, ⟨38, _⟩ => ⟨S396000, .f32⟩
  | .hbm, ⟨39, _⟩ => ⟨S_, .i32⟩
  | .hbm, ⟨40, _⟩ => ⟨S396000, .i32⟩
  | .hbm, ⟨41, _⟩ => ⟨S396000, .i1⟩
  | .hbm, ⟨42, _⟩ => ⟨S_, .i32⟩
  | .hbm, ⟨43, _⟩ => ⟨S396000, .i32⟩
  | .hbm, ⟨44, _⟩ => ⟨S396000, .i32⟩
  | .hbm, ⟨45, _⟩ => ⟨S396000, .i32⟩
  | .hbm, ⟨46, _⟩ => ⟨S396000x1, .i32⟩
  | .hbm, ⟨47, _⟩ => ⟨S396000, .f32⟩
  | .hbm, ⟨48, _⟩ => ⟨S396000, .f32⟩
  | .hbm, ⟨49, _⟩ => ⟨S12000x16, .f32⟩
  | .hbm, ⟨50, _⟩ => ⟨S_, .i32⟩
  | .hbm, ⟨51, _⟩ => ⟨S396000, .i32⟩
  | .hbm, ⟨52, _⟩ => ⟨S396000, .i1⟩
  | .hbm, ⟨53, _⟩ => ⟨S_, .i32⟩
  | .hbm, ⟨54, _⟩ => ⟨S396000, .i32⟩
  | .hbm, ⟨55, _⟩ => ⟨S396000, .i32⟩
  | .hbm, ⟨56, _⟩ => ⟨S396000, .i32⟩
  | .hbm, ⟨57, _⟩ => ⟨S396000x1, .i32⟩
  | .hbm, ⟨58, _⟩ => ⟨S396000x16, .f32⟩
  | .hbm, ⟨59, _⟩ => ⟨S396000x1, .f32⟩
  | .hbm, ⟨60, _⟩ => ⟨S396000x16, .f32⟩
  | .hbm, ⟨61, _⟩ => ⟨S396000x16, .f32⟩
  | .hbm, ⟨62, _⟩ => ⟨S_, .f32⟩
  | .hbm, ⟨63, _⟩ => ⟨S12000x16, .f32⟩
  | .hbm, ⟨64, _⟩ => ⟨S396000x1, .i32⟩
  | .hbm, ⟨65, _⟩ => ⟨S12000x16, .f32⟩
  | .hbm, ⟨66, _⟩ => ⟨S1x16, .f32⟩
  | .hbm, ⟨67, _⟩ => ⟨S12000x16, .f32⟩
  | .hbm, ⟨68, _⟩ => ⟨S12000x16, .f32⟩
  | .hbm, ⟨69, _⟩ => ⟨S_, .f32⟩
  | .hbm, ⟨70, _⟩ => ⟨S12000x16, .f32⟩
  | .hbm, ⟨71, _⟩ => ⟨S12000x16, .f32⟩
  | .hbm, ⟨72, _⟩ => ⟨S12000x7, .f32⟩
  | .hbm, ⟨73, _⟩ => ⟨S_, .i32⟩
  | .hbm, ⟨74, _⟩ => ⟨S396000, .i32⟩
  | .hbm, ⟨75, _⟩ => ⟨S396000, .i1⟩
  | .hbm, ⟨76, _⟩ => ⟨S_, .i32⟩
  | .hbm, ⟨77, _⟩ => ⟨S396000, .i32⟩
  | .hbm, ⟨78, _⟩ => ⟨S396000, .i32⟩
  | .hbm, ⟨79, _⟩ => ⟨S396000, .i32⟩
  | .hbm, ⟨80, _⟩ => ⟨S396000x1, .i32⟩
  | .hbm, ⟨81, _⟩ => ⟨S396000x7, .f32⟩
  | .hbm, ⟨82, _⟩ => ⟨S396000x1, .f32⟩
  | .hbm, ⟨83, _⟩ => ⟨S396000x7, .f32⟩
  | .hbm, ⟨84, _⟩ => ⟨S396000x7, .f32⟩
  | .hbm, ⟨85, _⟩ => ⟨S_, .f32⟩
  | .hbm, ⟨86, _⟩ => ⟨S12000x7, .f32⟩
  | .hbm, ⟨87, _⟩ => ⟨S396000x1, .i32⟩
  | .hbm, ⟨88, _⟩ => ⟨S12000x7, .f32⟩
  | .hbm, ⟨89, _⟩ => ⟨S1x7, .f32⟩
  | .hbm, ⟨90, _⟩ => ⟨S12000x7, .f32⟩
  | .hbm, ⟨91, _⟩ => ⟨S12000x7, .f32⟩
  | .hbm, ⟨92, _⟩ => ⟨S_, .f32⟩
  | .hbm, ⟨93, _⟩ => ⟨S12000, .f32⟩
  | .hbm, ⟨94, _⟩ => ⟨S_, .f32⟩
  | .hbm, ⟨95, _⟩ => ⟨S12000, .f32⟩
  | .hbm, ⟨96, _⟩ => ⟨S12000, .f32⟩
  | .hbm, ⟨97, _⟩ => ⟨S12000x1, .f32⟩
  | .hbm, ⟨98, _⟩ => ⟨S12000x7, .f32⟩
  | .hbm, ⟨99, _⟩ => ⟨S12000x7, .f32⟩
  | .hbm, ⟨100, _⟩ => ⟨S12000x7, .f32⟩
  | .hbm, ⟨101, _⟩ => ⟨S_, .f32⟩
  | .hbm, ⟨102, _⟩ => ⟨S12000, .f32⟩
  | .hbm, ⟨103, _⟩ => ⟨S12000x1, .f32⟩
  | .hbm, ⟨104, _⟩ => ⟨S12000x1, .f32⟩
  | .hbm, ⟨105, _⟩ => ⟨S12000x7, .f32⟩
  | .hbm, ⟨106, _⟩ => ⟨S12000x7, .f32⟩
  | .hbm, ⟨107, _⟩ => ⟨S12000x12000, .f32⟩
  | .local _ .vmem, ⟨0, _⟩ => ⟨S2048x7, .f32⟩
  | .local _ .vmem, ⟨1, _⟩ => ⟨S2048x7, .f32⟩
  | .local _ .vmem, ⟨2, _⟩ => ⟨S2048x7, .f32⟩
  | .local _ .vmem, ⟨3, _⟩ => ⟨S2048x7, .f32⟩
  | .local _ .vmem, ⟨4, _⟩ => ⟨S2048x2048, .f32⟩
  | .local _ .vmem, ⟨5, _⟩ => ⟨S2048x2048, .f32⟩
  | _, _ => ⟨S12000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩
abbrev main_v68 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x7 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S2x384000_S1x384000_0_0 : S2x384000.Slices ![0, 0] S1x384000
  shapeCasts_S1x384000_S384000 : S1x384000.ShapeCasts S384000
  concatenates_S384000_S12000_S396000_d0 : Shape.Concatenates [S384000, S12000] S396000 0
  slices_S2x384000_S1x384000_1_0 : S2x384000.Slices ![1, 0] S1x384000
  bcast_S_S396000 : S_.BroadcastsInDim S396000 (![] : Fin 0 → Fin S396000.rank)
  bcast_S_S12000 : S_.BroadcastsInDim S12000 (![] : Fin 0 → Fin S12000.rank)
  bcast_S396000_S396000x1_0 : S396000.BroadcastsInDim S396000x1 (![0] : Fin 1 → Fin S396000x1.rank)
  bcast_S396000x1_S396000x16_0_1 : S396000x1.BroadcastsInDim S396000x16 (![0, 1] : Fin 2 → Fin S396000x16.rank)
  bcast_S_S12000x16 : S_.BroadcastsInDim S12000x16 (![] : Fin 0 → Fin S12000x16.rank)
  bcast_S16_S1x16_1 : S16.BroadcastsInDim S1x16 (![1] : Fin 1 → Fin S1x16.rank)
  bcast_S1x16_S12000x16_0_1 : S1x16.BroadcastsInDim S12000x16 (![0, 1] : Fin 2 → Fin S12000x16.rank)
  bcast_S396000x1_S396000x7_0_1 : S396000x1.BroadcastsInDim S396000x7 (![0, 1] : Fin 2 → Fin S396000x7.rank)
  bcast_S_S12000x7 : S_.BroadcastsInDim S12000x7 (![] : Fin 0 → Fin S12000x7.rank)
  bcast_S7_S1x7_1 : S7.BroadcastsInDim S1x7 (![1] : Fin 1 → Fin S1x7.rank)
  bcast_S1x7_S12000x7_0_1 : S1x7.BroadcastsInDim S12000x7 (![0, 1] : Fin 2 → Fin S12000x7.rank)
  reducesTo_S12000x7_S12000_d1 : S12000x7.ReducesTo [1] S12000
  h_S_ : 0 < S_.numel
  bcast_S12000_S12000x1_0 : S12000.BroadcastsInDim S12000x1 (![0] : Fin 1 → Fin S12000x1.rank)
  bcast_S12000x1_S12000x7_0_1 : S12000x1.BroadcastsInDim S12000x7 (![0, 1] : Fin 2 → Fin S12000x7.rank)
  inb_S2048x7_S2048x7_0_0 : ∀ a, (![0, 0] : Fin 2 → Nat) a + S2048x7.size a ≤ S2048x7.size a
  h_S2048x7 : 0 < S2048x7.numel
  shapeCasts_S2048x7_S2048x7 : S2048x7.ShapeCasts S2048x7
  inb_S2048x2048_S2048x2048_0_0 : ∀ a, (![0, 0] : Fin 2 → Nat) a + S2048x2048.size a ≤ S2048x2048.size a
  h_S2048x2048 : 0 < S2048x2048.numel
  scatter_S12000_S396000x1_S396000_n_0_0_1_wf : ScatterDims.WF S12000 S396000x1 S396000 [] [0] [0] 1
  gather_S12000_S396000x1_S396000_n_0_n_n_0_1_1_wf : GatherDims.WF S12000 S396000x1 S396000 [] [0] [] [0] [] 1 ![1]
  dot_S12000x500_S500x16_S12000x16_1_0_0_1_n_n_wf : DotDims.WF S12000x500 S500x16 S12000x16 [1] [0] [0] [1] [] []
  gather_S12000x16_S396000x1_S396000x16_1_0_n_n_0_1_116_wf : GatherDims.WF S12000x16 S396000x1 S396000x16 [1] [0] [] [0] [] 1 ![1, 16]
  scatter_S12000x16_S396000x1_S396000x16_1_0_0_1_wf : ScatterDims.WF S12000x16 S396000x1 S396000x16 [1] [0] [0] 1
  dot_S12000x16_S16x7_S12000x7_1_0_0_1_n_n_wf : DotDims.WF S12000x16 S16x7 S12000x7 [1] [0] [0] [1] [] []
  gather_S12000x7_S396000x1_S396000x7_1_0_n_n_0_1_17_wf : GatherDims.WF S12000x7 S396000x1 S396000x7 [1] [0] [] [0] [] 1 ![1, 7]
  scatter_S12000x7_S396000x1_S396000x7_1_0_0_1_wf : ScatterDims.WF S12000x7 S396000x1 S396000x7 [1] [0] [0] 1
  dot_S2048x7_S2048x7_S2048x2048_1_1_0_0_n_n_wf : DotDims.WF S2048x7 S2048x7 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2048x7.size a < S12000x7.size a
  hwx0_0 : ∀ i : grid0.Coords, EltTy.bits .f32 = 32 ∨ (Rect.unit (s := S12000x7) (fun a => cc0_transform_0 i a * S2048x7.size a) (fun a => (Pipeline.Clip.of (cc0_transform_0 i a) (S2048x7.size a) (S12000x7.size a)).extent (S2048x7.size a)) fun a => Pipeline.Clip.inb (Pipeline.Clip.ok_of (hstart0_0 i a))).WholeWords (EltTy.packing .f32)
  hwxs0_0 : ∀ i : grid0.Coords, EltTy.bits .f32 = 32 ∨ (Rect.unit (s := S2048x7) (fun _ => 0) (fun a => (Pipeline.Clip.of (cc0_transform_0 i a) (S2048x7.size a) (S12000x7.size a)).extent (S2048x7.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x7.size a < S12000x7.size a
  hwx0_1 : ∀ i : grid0.Coords, EltTy.bits .f32 = 32 ∨ (Rect.unit (s := S12000x7) (fun a => cc0_transform_1 i a * S2048x7.size a) (fun a => (Pipeline.Clip.of (cc0_transform_1 i a) (S2048x7.size a) (S12000x7.size a)).extent (S2048x7.size a)) fun a => Pipeline.Clip.inb (Pipeline.Clip.ok_of (hstart0_1 i a))).WholeWords (EltTy.packing .f32)
  hwxs0_1 : ∀ i : grid0.Coords, EltTy.bits .f32 = 32 ∨ (Rect.unit (s := S2048x7) (fun _ => 0) (fun a => (Pipeline.Clip.of (cc0_transform_1 i a) (S2048x7.size a) (S12000x7.size a)).extent (S2048x7.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2048x2048.size a < S12000x12000.size a
  hwx0_2 : ∀ i : grid0.Coords, EltTy.bits .f32 = 32 ∨ (Rect.unit (s := S12000x12000) (fun a => cc0_transform_2 i a * S2048x2048.size a) (fun a => (Pipeline.Clip.of (cc0_transform_2 i a) (S2048x2048.size a) (S12000x12000.size a)).extent (S2048x2048.size a)) fun a => Pipeline.Clip.inb (Pipeline.Clip.ok_of (hstart0_2 i a))).WholeWords (EltTy.packing .f32)
  hwxs0_2 : ∀ i : grid0.Coords, EltTy.bits .f32 = 32 ∨ (Rect.unit (s := S2048x2048) (fun _ => 0) (fun a => (Pipeline.Clip.of (cc0_transform_2 i a) (S2048x2048.size a) (S12000x12000.size a)).extent (S2048x2048.size a)) fun a => (Nat.zero_add _).trans_le (Pipeline.Clip.extent_le (Pipeline.Clip.ok_of (hstart0_2 i a)))).WholeWords (EltTy.packing .f32)

variable [Facts₀]

def scatter_S12000_S396000x1_S396000_n_0_0_1 : ScatterDims S12000 S396000x1 S396000 where
  updateWindowDims := []
  insertedWindowDims := [0]
  scatterDimsToOperandDims := [0]
  indexVectorDim := 1
  wf := scatter_S12000_S396000x1_S396000_n_0_0_1_wf
def gather_S12000_S396000x1_S396000_n_0_n_n_0_1_1 : GatherDims S12000 S396000x1 S396000 where
  offsetDims := []
  collapsedSliceDims := [0]
  operandBatchingDims := []
  startIndicesBatchingDims := []
  startIndexMap := [0]
  indexVectorDim := 1
  sliceSizes := ![1]
  wf := gather_S12000_S396000x1_S396000_n_0_n_n_0_1_1_wf
def dot_S12000x500_S500x16_S12000x16_1_0_0_1_n_n : DotDims S12000x500 S500x16 S12000x16 where
  lhsContracting := [1]
  rhsContracting := [0]
  lhsNonContracting := [0]
  rhsNonContracting := [1]
  lhsBatch := []
  rhsBatch := []
  wf := dot_S12000x500_S500x16_S12000x16_1_0_0_1_n_n_wf
def gather_S12000x16_S396000x1_S396000x16_1_0_n_n_0_1_116 : GatherDims S12000x16 S396000x1 S396000x16 where
  offsetDims := [1]
  collapsedSliceDims := [0]
  operandBatchingDims := []
  startIndicesBatchingDims := []
  startIndexMap := [0]
  indexVectorDim := 1
  sliceSizes := ![1, 16]
  wf := gather_S12000x16_S396000x1_S396000x16_1_0_n_n_0_1_116_wf
def scatter_S12000x16_S396000x1_S396000x16_1_0_0_1 : ScatterDims S12000x16 S396000x1 S396000x16 where
  updateWindowDims := [1]
  insertedWindowDims := [0]
  scatterDimsToOperandDims := [0]
  indexVectorDim := 1
  wf := scatter_S12000x16_S396000x1_S396000x16_1_0_0_1_wf
def dot_S12000x16_S16x7_S12000x7_1_0_0_1_n_n : DotDims S12000x16 S16x7 S12000x7 where
  lhsContracting := [1]
  rhsContracting := [0]
  lhsNonContracting := [0]
  rhsNonContracting := [1]
  lhsBatch := []
  rhsBatch := []
  wf := dot_S12000x16_S16x7_S12000x7_1_0_0_1_n_n_wf
def gather_S12000x7_S396000x1_S396000x7_1_0_n_n_0_1_17 : GatherDims S12000x7 S396000x1 S396000x7 where
  offsetDims := [1]
  collapsedSliceDims := [0]
  operandBatchingDims := []
  startIndicesBatchingDims := []
  startIndexMap := [0]
  indexVectorDim := 1
  sliceSizes := ![1, 7]
  wf := gather_S12000x7_S396000x1_S396000x7_1_0_n_n_0_1_17_wf
def scatter_S12000x7_S396000x1_S396000x7_1_0_0_1 : ScatterDims S12000x7 S396000x1 S396000x7 where
  updateWindowDims := [1]
  insertedWindowDims := [0]
  scatterDimsToOperandDims := [0]
  indexVectorDim := 1
  wf := scatter_S12000x7_S396000x1_S396000x7_1_0_0_1_wf
def dot_S2048x7_S2048x7_S2048x2048_1_1_0_0_n_n : DotDims S2048x7 S2048x7 S2048x2048 where
  lhsContracting := [1]
  rhsContracting := [1]
  lhsNonContracting := [0]
  rhsNonContracting := [0]
  lhsBatch := []
  rhsBatch := []
  wf := dot_S2048x7_S2048x7_S2048x2048_1_1_0_0_n_n_wf

abbrev win0_0 : Pipeline.Window sig grid0 :=
  Pipeline.Window.ofSpecClip (Memref.whole main_v66) S2048x7.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v66) S2048x7.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v68) S2048x2048.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S12000x500 : Shape := ⟨2, ![12000, 500]⟩
abbrev S2x384000 : Shape := ⟨2, ![2, 384000]⟩
abbrev S500x16 : Shape := ⟨2, ![500, 16]⟩
abbrev S16 : Shape := ⟨1, ![16]⟩
abbrev S16x7 : Shape := ⟨2, ![16, 7]⟩
abbrev S7 : Shape := ⟨1, ![7]⟩
abbrev S12000 : Shape := ⟨1, ![12000]⟩
abbrev S1x384000 : Shape := ⟨2, ![1, 384000]⟩
abbrev S384000 : Shape := ⟨1, ![384000]⟩
abbrev S396000 : Shape := ⟨1, ![396000]⟩
abbrev S_ : Shape := ⟨0, ![]⟩
abbrev S396000x1 : Shape := ⟨2, ![396000, 1]⟩
abbrev S12000x16 : Shape := ⟨2, ![12000, 16]⟩
abbrev S396000x16 : Shape := ⟨2, ![396000, 16]⟩
abbrev S1x16 : Shape := ⟨2, ![1, 16]⟩
abbrev S12000x7 : Shape := ⟨2, ![12000, 7]⟩
abbrev S396000x7 : Shape := ⟨2, ![396000, 7]⟩
abbrev S1x7 : Shape := ⟨2, ![1, 7]⟩
abbrev S12000x1 : Shape := ⟨2, ![12000, 1]⟩
abbrev S7x12000 : Shape := ⟨2, ![7, 12000]⟩
abbrev S12000x12000 : Shape := ⟨2, ![12000, 12000]⟩

abbrev nBuf : Space → Nat
  | .hbm => 109
  | .vmem => 0
  | .smem => 0
  | _ => 0

abbrev bufTy : (tb : Table) → Fin (tcTables nBuf tb) → BufTy
  | .hbm, ⟨0, _⟩ => ⟨S12000x500, .f32⟩
  | .hbm, ⟨1, _⟩ => ⟨S2x384000, .i32⟩
  | .hbm, ⟨2, _⟩ => ⟨S500x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S12000, .i32⟩
  | .hbm, ⟨7, _⟩ => ⟨S1x384000, .i32⟩
  | .hbm, ⟨8, _⟩ => ⟨S384000, .i32⟩
  | .hbm, ⟨9, _⟩ => ⟨S396000, .i32⟩
  | .hbm, ⟨10, _⟩ => ⟨S1x384000, .i32⟩
  | .hbm, ⟨11, _⟩ => ⟨S384000, .i32⟩
  | .hbm, ⟨12, _⟩ => ⟨S396000, .i32⟩
  | .hbm, ⟨13, _⟩ => ⟨S_, .f32⟩
  | .hbm, ⟨14, _⟩ => ⟨S396000, .f32⟩
  | .hbm, ⟨15, _⟩ => ⟨S_, .f32⟩
  | .hbm, ⟨16, _⟩ => ⟨S12000, .f32⟩
  | .hbm, ⟨17, _⟩ => ⟨S396000x1, .i32⟩
  | .hbm, ⟨18, _⟩ => ⟨S12000, .f32⟩
  | .hbm, ⟨19, _⟩ => ⟨S_, .f32⟩
  | .hbm, ⟨20, _⟩ => ⟨S12000, .f32⟩
  | .hbm, ⟨21, _⟩ => ⟨S12000, .i1⟩
  | .hbm, ⟨22, _⟩ => ⟨S_, .f32⟩
  | .hbm, ⟨23, _⟩ => ⟨S12000, .f32⟩
  | .hbm, ⟨24, _⟩ => ⟨S12000, .f32⟩
  | .hbm, ⟨25, _⟩ => ⟨S12000, .f32⟩
  | .hbm, ⟨26, _⟩ => ⟨S_, .f32⟩
  | .hbm, ⟨27, _⟩ => ⟨S_, .f32⟩
  | .hbm, ⟨28, _⟩ => ⟨S12000, .f32⟩
  | .hbm, ⟨29, _⟩ => ⟨S12000, .f32⟩
  | .hbm, ⟨30, _⟩ => ⟨S_, .i32⟩
  | .hbm, ⟨31, _⟩ => ⟨S396000, .i32⟩
  | .hbm, ⟨32, _⟩ => ⟨S396000, .i1⟩
  | .hbm, ⟨33, _⟩ => ⟨S_, .i32⟩
  | .hbm, ⟨34, _⟩ => ⟨S396000, .i32⟩
  | .hbm, ⟨35, _⟩ => ⟨S396000, .i32⟩
  | .hbm, ⟨36, _⟩ => ⟨S396000, .i32⟩
  | .hbm, ⟨37, _⟩ => ⟨S396000x1, .i32⟩
  | .hbm, ⟨38, _⟩ => ⟨S396000, .f32⟩
  | .hbm, ⟨39, _⟩ => ⟨S_, .i32⟩
  | .hbm, ⟨40, _⟩ => ⟨S396000, .i32⟩
  | .hbm, ⟨41, _⟩ => ⟨S396000, .i1⟩
  | .hbm, ⟨42, _⟩ => ⟨S_, .i32⟩
  | .hbm, ⟨43, _⟩ => ⟨S396000, .i32⟩
  | .hbm, ⟨44, _⟩ => ⟨S396000, .i32⟩
  | .hbm, ⟨45, _⟩ => ⟨S396000, .i32⟩
  | .hbm, ⟨46, _⟩ => ⟨S396000x1, .i32⟩
  | .hbm, ⟨47, _⟩ => ⟨S396000, .f32⟩
  | .hbm, ⟨48, _⟩ => ⟨S396000, .f32⟩
  | .hbm, ⟨49, _⟩ => ⟨S12000x16, .f32⟩
  | .hbm, ⟨50, _⟩ => ⟨S_, .i32⟩
  | .hbm, ⟨51, _⟩ => ⟨S396000, .i32⟩
  | .hbm, ⟨52, _⟩ => ⟨S396000, .i1⟩
  | .hbm, ⟨53, _⟩ => ⟨S_, .i32⟩
  | .hbm, ⟨54, _⟩ => ⟨S396000, .i32⟩
  | .hbm, ⟨55, _⟩ => ⟨S396000, .i32⟩
  | .hbm, ⟨56, _⟩ => ⟨S396000, .i32⟩
  | .hbm, ⟨57, _⟩ => ⟨S396000x1, .i32⟩
  | .hbm, ⟨58, _⟩ => ⟨S396000x16, .f32⟩
  | .hbm, ⟨59, _⟩ => ⟨S396000x1, .f32⟩
  | .hbm, ⟨60, _⟩ => ⟨S396000x16, .f32⟩
  | .hbm, ⟨61, _⟩ => ⟨S396000x16, .f32⟩
  | .hbm, ⟨62, _⟩ => ⟨S_, .f32⟩
  | .hbm, ⟨63, _⟩ => ⟨S12000x16, .f32⟩
  | .hbm, ⟨64, _⟩ => ⟨S396000x1, .i32⟩
  | .hbm, ⟨65, _⟩ => ⟨S12000x16, .f32⟩
  | .hbm, ⟨66, _⟩ => ⟨S1x16, .f32⟩
  | .hbm, ⟨67, _⟩ => ⟨S12000x16, .f32⟩
  | .hbm, ⟨68, _⟩ => ⟨S12000x16, .f32⟩
  | .hbm, ⟨69, _⟩ => ⟨S_, .f32⟩
  | .hbm, ⟨70, _⟩ => ⟨S12000x16, .f32⟩
  | .hbm, ⟨71, _⟩ => ⟨S12000x16, .f32⟩
  | .hbm, ⟨72, _⟩ => ⟨S12000x7, .f32⟩
  | .hbm, ⟨73, _⟩ => ⟨S_, .i32⟩
  | .hbm, ⟨74, _⟩ => ⟨S396000, .i32⟩
  | .hbm, ⟨75, _⟩ => ⟨S396000, .i1⟩
  | .hbm, ⟨76, _⟩ => ⟨S_, .i32⟩
  | .hbm, ⟨77, _⟩ => ⟨S396000, .i32⟩
  | .hbm, ⟨78, _⟩ => ⟨S396000, .i32⟩
  | .hbm, ⟨79, _⟩ => ⟨S396000, .i32⟩
  | .hbm, ⟨80, _⟩ => ⟨S396000x1, .i32⟩
  | .hbm, ⟨81, _⟩ => ⟨S396000x7, .f32⟩
  | .hbm, ⟨82, _⟩ => ⟨S396000x1, .f32⟩
  | .hbm, ⟨83, _⟩ => ⟨S396000x7, .f32⟩
  | .hbm, ⟨84, _⟩ => ⟨S396000x7, .f32⟩
  | .hbm, ⟨85, _⟩ => ⟨S_, .f32⟩
  | .hbm, ⟨86, _⟩ => ⟨S12000x7, .f32⟩
  | .hbm, ⟨87, _⟩ => ⟨S396000x1, .i32⟩
  | .hbm, ⟨88, _⟩ => ⟨S12000x7, .f32⟩
  | .hbm, ⟨89, _⟩ => ⟨S1x7, .f32⟩
  | .hbm, ⟨90, _⟩ => ⟨S12000x7, .f32⟩
  | .hbm, ⟨91, _⟩ => ⟨S12000x7, .f32⟩
  | .hbm, ⟨92, _⟩ => ⟨S_, .f32⟩
  | .hbm, ⟨93, _⟩ => ⟨S12000, .f32⟩
  | .hbm, ⟨94, _⟩ => ⟨S_, .f32⟩
  | .hbm, ⟨95, _⟩ => ⟨S12000, .f32⟩
  | .hbm, ⟨96, _⟩ => ⟨S12000, .f32⟩
  | .hbm, ⟨97, _⟩ => ⟨S12000x1, .f32⟩
  | .hbm, ⟨98, _⟩ => ⟨S12000x7, .f32⟩
  | .hbm, ⟨99, _⟩ => ⟨S12000x7, .f32⟩
  | .hbm, ⟨100, _⟩ => ⟨S12000x7, .f32⟩
  | .hbm, ⟨101, _⟩ => ⟨S_, .f32⟩
  | .hbm, ⟨102, _⟩ => ⟨S12000, .f32⟩
  | .hbm, ⟨103, _⟩ => ⟨S12000x1, .f32⟩
  | .hbm, ⟨104, _⟩ => ⟨S12000x1, .f32⟩
  | .hbm, ⟨105, _⟩ => ⟨S12000x7, .f32⟩
  | .hbm, ⟨106, _⟩ => ⟨S12000x7, .f32⟩
  | .hbm, ⟨107, _⟩ => ⟨S7x12000, .f32⟩
  | .hbm, ⟨108, _⟩ => ⟨S12000x12000, .f32⟩
  | _, _ => ⟨S12000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩

abbrev nD : Nat := 1
abbrev τ : Topo := Topo.v7x

variable {F : FTy → Type} [FloatOps F]

class Facts₀ : Prop where
  slices_S2x384000_S1x384000_0_0 : S2x384000.Slices ![0, 0] S1x384000
  shapeCasts_S1x384000_S384000 : S1x384000.ShapeCasts S384000
  concatenates_S384000_S12000_S396000_d0 : Shape.Concatenates [S384000, S12000] S396000 0
  slices_S2x384000_S1x384000_1_0 : S2x384000.Slices ![1, 0] S1x384000
  bcast_S_S396000 : S_.BroadcastsInDim S396000 (![] : Fin 0 → Fin S396000.rank)
  bcast_S_S12000 : S_.BroadcastsInDim S12000 (![] : Fin 0 → Fin S12000.rank)
  bcast_S396000_S396000x1_0 : S396000.BroadcastsInDim S396000x1 (![0] : Fin 1 → Fin S396000x1.rank)
  bcast_S396000x1_S396000x16_0_1 : S396000x1.BroadcastsInDim S396000x16 (![0, 1] : Fin 2 → Fin S396000x16.rank)
  bcast_S_S12000x16 : S_.BroadcastsInDim S12000x16 (![] : Fin 0 → Fin S12000x16.rank)
  bcast_S16_S1x16_1 : S16.BroadcastsInDim S1x16 (![1] : Fin 1 → Fin S1x16.rank)
  bcast_S1x16_S12000x16_0_1 : S1x16.BroadcastsInDim S12000x16 (![0, 1] : Fin 2 → Fin S12000x16.rank)
  bcast_S396000x1_S396000x7_0_1 : S396000x1.BroadcastsInDim S396000x7 (![0, 1] : Fin 2 → Fin S396000x7.rank)
  bcast_S_S12000x7 : S_.BroadcastsInDim S12000x7 (![] : Fin 0 → Fin S12000x7.rank)
  bcast_S7_S1x7_1 : S7.BroadcastsInDim S1x7 (![1] : Fin 1 → Fin S1x7.rank)
  bcast_S1x7_S12000x7_0_1 : S1x7.BroadcastsInDim S12000x7 (![0, 1] : Fin 2 → Fin S12000x7.rank)
  reducesTo_S12000x7_S12000_d1 : S12000x7.ReducesTo [1] S12000
  h_S_ : 0 < S_.numel
  bcast_S12000_S12000x1_0 : S12000.BroadcastsInDim S12000x1 (![0] : Fin 1 → Fin S12000x1.rank)
  bcast_S12000x1_S12000x7_0_1 : S12000x1.BroadcastsInDim S12000x7 (![0, 1] : Fin 2 → Fin S12000x7.rank)
  transposes_S12000x7_S7x12000_1_0 : S12000x7.Transposes [1, 0] S7x12000
  scatter_S12000_S396000x1_S396000_n_0_0_1_wf : ScatterDims.WF S12000 S396000x1 S396000 [] [0] [0] 1
  gather_S12000_S396000x1_S396000_n_0_n_n_0_1_1_wf : GatherDims.WF S12000 S396000x1 S396000 [] [0] [] [0] [] 1 ![1]
  dot_S12000x500_S500x16_S12000x16_1_0_0_1_n_n_wf : DotDims.WF S12000x500 S500x16 S12000x16 [1] [0] [0] [1] [] []
  gather_S12000x16_S396000x1_S396000x16_1_0_n_n_0_1_116_wf : GatherDims.WF S12000x16 S396000x1 S396000x16 [1] [0] [] [0] [] 1 ![1, 16]
  scatter_S12000x16_S396000x1_S396000x16_1_0_0_1_wf : ScatterDims.WF S12000x16 S396000x1 S396000x16 [1] [0] [0] 1
  dot_S12000x16_S16x7_S12000x7_1_0_0_1_n_n_wf : DotDims.WF S12000x16 S16x7 S12000x7 [1] [0] [0] [1] [] []
  gather_S12000x7_S396000x1_S396000x7_1_0_n_n_0_1_17_wf : GatherDims.WF S12000x7 S396000x1 S396000x7 [1] [0] [] [0] [] 1 ![1, 7]
  scatter_S12000x7_S396000x1_S396000x7_1_0_0_1_wf : ScatterDims.WF S12000x7 S396000x1 S396000x7 [1] [0] [0] 1
  dot_S12000x7_S7x12000_S12000x12000_1_0_0_1_n_n_wf : DotDims.WF S12000x7 S7x12000 S12000x12000 [1] [0] [0] [1] [] []

variable [Facts₀]

def scatter_S12000_S396000x1_S396000_n_0_0_1 : ScatterDims S12000 S396000x1 S396000 where
  updateWindowDims := []
  insertedWindowDims := [0]
  scatterDimsToOperandDims := [0]
  indexVectorDim := 1
  wf := scatter_S12000_S396000x1_S396000_n_0_0_1_wf
def gather_S12000_S396000x1_S396000_n_0_n_n_0_1_1 : GatherDims S12000 S396000x1 S396000 where
  offsetDims := []
  collapsedSliceDims := [0]
  operandBatchingDims := []
  startIndicesBatchingDims := []
  startIndexMap := [0]
  indexVectorDim := 1
  sliceSizes := ![1]
  wf := gather_S12000_S396000x1_S396000_n_0_n_n_0_1_1_wf
def dot_S12000x500_S500x16_S12000x16_1_0_0_1_n_n : DotDims S12000x500 S500x16 S12000x16 where
  lhsContracting := [1]
  rhsContracting := [0]
  lhsNonContracting := [0]
  rhsNonContracting := [1]
  lhsBatch := []
  rhsBatch := []
  wf := dot_S12000x500_S500x16_S12000x16_1_0_0_1_n_n_wf
def gather_S12000x16_S396000x1_S396000x16_1_0_n_n_0_1_116 : GatherDims S12000x16 S396000x1 S396000x16 where
  offsetDims := [1]
  collapsedSliceDims := [0]
  operandBatchingDims := []
  startIndicesBatchingDims := []
  startIndexMap := [0]
  indexVectorDim := 1
  sliceSizes := ![1, 16]
  wf := gather_S12000x16_S396000x1_S396000x16_1_0_n_n_0_1_116_wf
def scatter_S12000x16_S396000x1_S396000x16_1_0_0_1 : ScatterDims S12000x16 S396000x1 S396000x16 where
  updateWindowDims := [1]
  insertedWindowDims := [0]
  scatterDimsToOperandDims := [0]
  indexVectorDim := 1
  wf := scatter_S12000x16_S396000x1_S396000x16_1_0_0_1_wf
def dot_S12000x16_S16x7_S12000x7_1_0_0_1_n_n : DotDims S12000x16 S16x7 S12000x7 where
  lhsContracting := [1]
  rhsContracting := [0]
  lhsNonContracting := [0]
  rhsNonContracting := [1]
  lhsBatch := []
  rhsBatch := []
  wf := dot_S12000x16_S16x7_S12000x7_1_0_0_1_n_n_wf
def gather_S12000x7_S396000x1_S396000x7_1_0_n_n_0_1_17 : GatherDims S12000x7 S396000x1 S396000x7 where
  offsetDims := [1]
  collapsedSliceDims := [0]
  operandBatchingDims := []
  startIndicesBatchingDims := []
  startIndexMap := [0]
  indexVectorDim := 1
  sliceSizes := ![1, 7]
  wf := gather_S12000x7_S396000x1_S396000x7_1_0_n_n_0_1_17_wf
def scatter_S12000x7_S396000x1_S396000x7_1_0_0_1 : ScatterDims S12000x7 S396000x1 S396000x7 where
  updateWindowDims := [1]
  insertedWindowDims := [0]
  scatterDimsToOperandDims := [0]
  indexVectorDim := 1
  wf := scatter_S12000x7_S396000x1_S396000x7_1_0_0_1_wf
def dot_S12000x7_S7x12000_S12000x12000_1_0_0_1_n_n : DotDims S12000x7 S7x12000 S12000x12000 where
  lhsContracting := [1]
  rhsContracting := [0]
  lhsNonContracting := [0]
  rhsNonContracting := [1]
  lhsBatch := []
  rhsBatch := []
  wf := dot_S12000x7_S7x12000_S12000x12000_1_0_0_1_n_n_wf

class Facts : Prop extends Facts₀ where

variable [Facts]
-- ==== Proof.KEntry.lean ====
/-
  What the inner-product region finds when it is entered.  The program is a graph convolution on the host
  (degree normalisation, two gather / scatter-add layers, a log-softmax) followed by ONE kernel region that
  forms the matrix of inner products of the node embeddings.  Every host operation precedes the region, so the
  contents of every array at the region's entry are the host operations' results of the launch contents
  (`V`); @main is those operations and then the region (`hmain`); and no host operation writes an argument
  array (`V_main_argK`).
-/
import proofs.«167786_j42322607735202_2_alg».proof.Proof.Gen.Kernel.Launch
import Idealize.ShloMosaic.Lib.Pipeline.FrameBody
import Idealize.ShloMosaic.Lib.Tactic

noncomputable section

namespace Cert.Kernel.Entry

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s arrays when the region is entered: after the six stretches of host operations. -/
abbrev V (c : Dev nD) (b : Ref sig .tc) : Buf (Elt F) ((c : Thread nD τ).loc b) :=
  StableHlo.after (List.flatten [hostOps0, hostOps0_1, hostOps0_2, hostOps0_3, hostOps0_4, hostOps0_5]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor

/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5]
    (by simp only [List.Forall]; exact ⟨hostOps0_sub, hostOps0_1_sub, hostOps0_2_sub, hostOps0_3_sub, hostOps0_4_sub, hostOps0_5_sub⟩)
    (by simp only [List.Forall]; exact ⟨hostOps0_fresh, hostOps0_1_fresh, hostOps0_2_fresh, hostOps0_3_fresh, hostOps0_4_fresh, hostOps0_5_fresh⟩) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))

end Cert.Kernel.Entry

end
-- ==== Proof.KBody.lean ====
/-
  The body of the inner-product region, run once: it loads its two input blocks (2048 rows of 7 features each),
  forms all 2048 × 2048 inner products of a row of the first with a row of the second, and stores them over the
  whole output block.  Whatever the three staging buffers hold when the body starts, it runs to its end without
  a fault, leaves the two input buffers as they were, and leaves the output buffer holding that product of what
  it loaded (the load of the output buffer that precedes the store is dead).
-/
import proofs.«167786_j42322607735202_2_alg».proof.Proof.Gen.Kernel.Launch
import proofs.«167786_j42322607735202_2_alg».proof.Proof.Gen.Kernel.Skeleton
import proofs.«167786_j42322607735202_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of an input block, and the whole of the output block: the rectangles of the body's accesses. -/
abbrev rIn : Rect S2048x7 := Rect.unit (s := S2048x7) ![0, 0] S2048x7.size inb_S2048x7_S2048x7_0_0
abbrev rOut : Rect S2048x2048 := Rect.unit (s := S2048x2048) ![0, 0] S2048x2048.size inb_S2048x2048_S2048x2048_0_0

/-- What the body leaves in the output buffer when the input buffers hold `x0` and `x1`: its one store, of the
    product of the two loaded blocks. -/
def stored (x0 x1 : Vec F S2048x7 .f32) : Vec F S2048x2048 .f32 :=
  View.canon [⟨rOut, k0_pay1 (View.ld x0 rIn) (View.ld x1 rIn)⟩]

/-- The one store covers the output block. -/
theorem cover (p0 : Vec F S2048x2048 .f32) (y : S2048x2048.Idx) :
    ∃ pc ∈ ([⟨rOut, p0⟩] : List (View.Piece (Elt F) S2048x2048 .f32)), y ∈ pc.1.set :=
  View.cover_of_tiled [⟨rOut, p0⟩] S2048x2048.size (by rfl) y

set_option maxHeartbeats 1000000 in
/-- The body on whole staging buffers, the inputs' at `x0` and `x1` and the output's at anything, runs to the
    continuation holding the inputs' as they were and the output's at `stored x0 x1`. -/
theorem sound_kernel (c : Dev nD) (E : Set ℕ) (i : grid0.Coords)
    (arg2 : Memref sig .tc .vmem S2048x7 .f32) (harg2 : arg2.IsWhole) (arg3 : Memref sig .tc .vmem S2048x7 .f32) (harg3 : arg3.IsWhole)
    (arg4 : Memref sig .tc .vmem S2048x2048 .f32) (harg4 : arg4.IsWhole)
    (x0 x1 : Vec F S2048x7 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (stored x0 x1)) -∗ K ⟨⟩))
      ⊢ wp frame (wpE (defs₀ (F := F)) Variants.none c none) E (cc0__zzt_kernel i arg2 harg2 arg3 harg3 arg4 harg4) K := by
  simp only [cc0__zzt_kernel_eq_skeleton]; unfold cc0__zzt_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

end Cert.Kernel.Body

end
-- ==== Proof.KArraySplit.lean ====
/-
  The region's three windows stand on TWO arrays: both input windows read the node embedding (one its row blocks,
  the other its column blocks of the product), the output window writes the product.  At the region's entry the
  embedding's buffer is held whole; it is divided into two half shares, one for each input window, which is enough
  for windows that only read; the product's buffer goes to the output window whole.
-/
import proofs.«167786_j42322607735202_2_alg».proof.Proof.KEntry

noncomputable section

namespace Cert.Kernel.ArraySplit

open Cert.Kernel Cert.Kernel.Gen Cert.Kernel.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The distinct buffers behind the three windows' arrays: the embedding's and the product's. -/
theorem arr_image : Finset.univ.image (Pipeline.arrRef spec0) = ({main_v66, main_v68} : Finset (Ref sig .tc)) := by decide

set_option maxHeartbeats 4000000 in
/-- The buffers behind the windows' arrays, whole at the entry contents, are the windows' arrays at those contents,
    the two readers of the embedding at the two halves of its share. -/
theorem split_arrays (c : Dev nD) (W : (b : Ref sig .tc) → Buf (Elt F) ((c : Thread nD τ).loc b))
    (rd : RDat τ (Elt F) Unit ℕ (UR sig nD τ) ℕ cfg0 c)
    (hq0 : rd.q 0 = fullShare.left) (hq1 : rd.q 1 = fullShare.right)
    (hA : ∀ w, rd.A w = W (Pipeline.arrRef spec0 w)) :
    (Pipeline.arrBufs spec0 c W : sProp 𝕄) ⊢ rd.arrays rd.A := by
  classical
  have s0 : rd.share 0 = fullShare.left := by unfold RDat.share; rw [if_neg (by decide), hq0]
  have s1 : rd.share 1 = fullShare.right := by unfold RDat.share; rw [if_neg (by decide), hq1]
  have s2 : rd.share 2 = fullShare := by unfold RDat.share; rw [if_pos (by decide)]
  have e0 : (cfg0.win (0 : Fin 3)).arr.view.set = Finset.univ := Memref.IsWhole.set_eq_univ (arr_whole0 0)
  have e2 : (cfg0.win (2 : Fin 3)).arr.view.set = Finset.univ := Memref.IsWhole.set_eq_univ (arr_whole0 2)
  unfold RDat.arrays Pipeline.arrBufs
  rw [arr_image, bigSep_insert (by decide), bigSep_singleton, bigSep_W0, hA 0, hA 1, hA 2, s0, s1, s2, e0, e2]
  show iprop(((c : Thread nD τ).loc main_v66 ↦{fullShare} W main_v66) ∗ ((c : Thread nD τ).loc main_v68 ↦{fullShare} W main_v68)) ⊢ _
  iintro ⟨H66, H68⟩
  ihave H := (pointsTo_share (PosShare.mem_left_op_right fullShare)).1 $$ H66
  icases H with ⟨Hl, Hr⟩
  isplitl [Hl]; · iexact Hl
  isplitl [Hr]; · iexact Hr
  iexact H68

end Cert.Kernel.ArraySplit

end
-- ==== Proof.KSharedRun.lean ====
/-
  The region launched with an array shared by two windows, once for every use: for any relational description of
  what the body does to its staging buffers (`run_rel`), every weakly fair execution of @main — the host operations,
  then the 36 grid points of the region, each fetching its blocks, running the body and writing its block of the
  product back — terminates without a fault; the arrays the windows stand on end as the description allows, and
  every other array ends as the region found it.  Taken with the description that says nothing of the buffers'
  contents (the body runs from any contents), this is the FRAME of the program at any reading of its floats: no
  host operation writes an argument array and the region writes only the product's array, so the six argument
  arrays end as launched.
-/
import proofs.«167786_j42322607735202_2_alg».proof.Proof.KEntry
import proofs.«167786_j42322607735202_2_alg».proof.Proof.KBody
import proofs.«167786_j42322607735202_2_alg».proof.Proof.KArraySplit

noncomputable section

namespace Cert.Kernel.SharedRun

open Cert.Kernel Cert.Kernel.Gen Cert.Kernel.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region prefetches no table: its one admissible table contents. -/
abbrev adm : (p : Fin 1) → ((pcfgs (F := F)) p).Adm := fun q => (cfgs q).toPCfg_adm

/-- The staging cells of the program are pairwise distinct. -/
theorem cells_inj : Function.Injective (Pipeline.cellOf (nD := nD) (τ := τ) (Pipeline.pin (pcfgs (F := F)) adm)) := cellOf_inj

set_option backward.isDefEq.respectTransparency.types false in
set_option maxHeartbeats 2000000 in
/-- THE RUN over relational proof data `rdat` whose two input windows hold the two halves of the embedding's
    share: from any memory with zero counters every weakly fair execution of @main terminates, each windowed array
    ends at contents the data allow after every write-back, and every other array ends as the region found it. -/
theorem run_rel (W : (c : Dev nD) → (b : Ref sig .tc) → Buf (Elt F) ((c : Thread nD τ).loc b))
    (hmainW : Pipeline.HMain (Ix := Unit) (Name := ℕ) (U := UR sig nD τ) (Lvl := ℕ) cfgs 0 defs₀ Variants.none m (main (F := F)) W)
    (rdat : (c : Dev nD) → RDat τ (Elt F) Unit ℕ (UR sig nD τ) ℕ cfg0 c)
    (hbody : ∀ c, (rdat c).BodyObligation (defs₀ (F := F)) Variants.none () Set.univ)
    (hq0 : ∀ c, (rdat c).q 0 = fullShare.left) (hq1 : ∀ c, (rdat c).q 1 = fullShare.right)
    (howed : ∀ c t, (rdat c).owed t = 0)
    (hA : ∀ c w, (rdat c).A w = W c (Pipeline.arrRef spec0 w))
    (hΦ : ∀ c t, (rdat c).Φ t = Pipeline.ΦA spec0 c) :
    θ_run defs (onTc (τ := τ) (main (F := F))) (s₀ m ρ) (Pipeline.RDat.FramePost cfg0 rdat W) := by
  classical
  exact Pipeline.RDat.θ_run_region_pf (pcfgs (F := F)) adm (Pipeline.RDat.familyOf (pcfgs (F := F)) adm 0 rdat) () cells_inj (0 : Fin 1) winFacts₀0
    (Pipeline.OwnSemFacts.none (cfg0).spec) (Pipeline.PreFacts.none _) emb₁ defs₀ Variants.none m ρ main
    (fun c => by rw [Pipeline.RDat.familyOf_self]; exact hbody c)
    block_pos0 arr_whole0 stage_whole0 (fun c t => by rw [Pipeline.RDat.familyOf_self]; exact howed c t)
    (G := fun _ => iprop(emp))
    (u₀ := initOf (Pipeline.cells (Pipeline.pin (pcfgs (F := F)) adm) cells_inj) (Pipeline.launchToks (Pipeline.pin (pcfgs (F := F)) adm) cells_inj))
    (hu₀ := by
      iintro Hu; imodintro
      isplitl [Hu]; · iapply (show (ownU _ : sProp 𝕄) ⊢ BI.own (emb₁ (initOf (Pipeline.cells (Pipeline.pin (pcfgs (F := F)) adm) cells_inj) (Pipeline.launchToks (Pipeline.pin (pcfgs (F := F)) adm) cells_inj))) from .rfl); iexact Hu
      iapply (show (BI.emp : sProp 𝕄) ⊢ bigSep Finset.univ (fun _ : Dev nD => (BI.emp : sProp 𝕄)) from by rw [BI.bigSep_emp_const])
      iempintro)
    (V := W) (hmain := hmainW)
    (hsplit := fun c => by rw [Pipeline.RDat.familyOf_self]; exact ArraySplit.split_arrays c (W c) (rdat c) (hq0 c) (hq1 c) (hA c))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) ((pcfgs (F := F)) 0).pre (cfg0).spec c (W c))
    (hX := fun c => by
      iintro ⟨HU, -, -, -, Hp, -⟩; imodintro
      isplitl [Hp]; · iexists _; iexact Hp
      iexact HU)
    (hin := fun c => by
      rw [Pipeline.RDat.familyOf_self, hΦ]
      unfold Pipeline.ΦA; iintro ⟨Hp, Ht, Hr⟩
      isplitl [Hr] <;> iassumption)
    (hout := fun c => by
      rw [Pipeline.RDat.familyOf_self, hΦ, Pipeline.ownSems0_none]; unfold Pipeline.ΦA
      iintro ⟨Hr, Hp⟩
      isplitl [Hp]; · iexact Hp
      isplitr; · iempintro
      iexact Hr)
    (QY := fun c s => ∀ b ∈ Pipeline.restRefsP sig ((pcfgs (F := F)) 0).pre (cfg0).spec, s.mem ((c.tc : Thread nD τ).loc b) = W c b)
    (hY := fun c s' => by
      iintro ⟨-, HU, HSI⟩
      unfold Pipeline.unscopedRestP
      imodintro
      iapply (pointsTo_read_all (Pipeline.restRefsP sig ((pcfgs (F := F)) 0).pre (cfg0).spec) (fun b => (c.tc : Thread nD τ).loc b) (W c) s')
      isplitl [HU] <;> iassumption)
    (hQ := fun s h c => ⟨fun w => by simpa only [Pipeline.RDat.familyOf_self] using (h c).1 w,
      Pipeline.rest_of_restP ((pcfgs (F := F)) 0).pre (cfg0).spec (adm (F := F) 0).1 c (W c) s (fun k => k.elim0) (h c).2.1 (h c).2.2⟩)

/-! ## The frame: the body runs whatever its buffers hold -/

/-- Relational proof data that say nothing of the staging buffers' contents: the arrays as the region finds them,
    any contents handed to the body and any contents taken back, the two readers of the embedding at half shares. -/
def anyData (c : Dev nD) : RDat τ (Elt F) Unit ℕ (UR sig nD τ) ℕ cfg0 c where
  A w := V m c (Pipeline.arrRef spec0 w)
  after _ _ _ _ := True
  Φ _ := Pipeline.ΦA spec0 c
  q := ![fullShare.left, fullShare.right, fullShare]
  owed _ := 0

/-- The body at any point, from any contents of the three current staging buffers. -/
theorem any_point (c : Dev nD) (t : Fin cfg0.N) (Y0 Y1 : Vec F S2048x7 .f32) (Y2 : Vec F S2048x2048 .f32) :
    iprop((anyData m c).Φ t.castSucc ∗ (anyData m c).owesAt () t.castSucc
        ∗ owns (c : Thread nD τ) (st0_0 t) fullShare Y0 ∗ owns (c : Thread nD τ) (st0_1 t) fullShare Y1 ∗ owns (c : Thread nD τ) (st0_2 t) fullShare Y2)
      ⊢ wp frame (wpE (defs₀ (F := F)) Variants.none c none) Set.univ (bodyAt0 t) (fun _ =>
          iprop((anyData m c).Φ t.succ ∗ (anyData m c).owesAt () t.succ
            ∗ (∃ X, ⌜True⌝ ∗ owns (c : Thread nD τ) (st0_0 t) fullShare X) ∗ (∃ X, ⌜True⌝ ∗ owns (c : Thread nD τ) (st0_1 t) fullShare X)
            ∗ (∃ X, ⌜True⌝ ∗ owns (c : Thread nD τ) (st0_2 t) fullShare X))) := by
  unfold bodyAt0
  rw [show (anyData m c).Φ t.succ = (anyData m c).Φ t.castSucc from rfl,
    show (anyData m c).owesAt () t.succ = (anyData m c).owesAt () t.castSucc from rfl]
  iintro ⟨HΦ, Ho, H0, H1, H2⟩
  iapply (Body.sound_kernel c Set.univ _ _ _ _ _ _ _ Y0 Y1 _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists _; isplitr; · ipureintro; trivial
    iexact H0
  isplitl [H1]
  · iexists _; isplitr; · ipureintro; trivial
    iexact H1
  iexists _; isplitr; · ipureintro; trivial
  iexact H2

/-- The body obligation of those data, at every point. -/
theorem any_body (c : Dev nD) : (anyData m c).BodyObligation (defs₀ (F := F)) Variants.none () Set.univ := fun t Y _ => by
  rw [bigSep_W0, bigSep_W0]
  exact any_point m c t (Y 0) (Y 1) (Y 2)

/-- THE FRAME at any reading of the floats: @main runs to its end without a fault and the six argument arrays end
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h c).2 main_arg0 (Pipeline.mem_restRefs_of main_arg0 rfl (by decide))).trans (V_main_arg0 m c),
      ((h c).2 main_arg1 (Pipeline.mem_restRefs_of main_arg1 rfl (by decide))).trans (V_main_arg1 m c),
      ((h c).2 main_arg2 (Pipeline.mem_restRefs_of main_arg2 rfl (by decide))).trans (V_main_arg2 m c),
      ((h c).2 main_arg3 (Pipeline.mem_restRefs_of main_arg3 rfl (by decide))).trans (V_main_arg3 m c),
      ((h c).2 main_arg4 (Pipeline.mem_restRefs_of main_arg4 rfl (by decide))).trans (V_main_arg4 m c),
      ((h c).2 main_arg5 (Pipeline.mem_restRefs_of main_arg5 rfl (by decide))).trans (V_main_arg5 m c)⟩)
    (run_rel m ρ (V m) (hmain m Variants.none) (anyData m) (any_body m) (fun _ => rfl) (fun _ => rfl) (fun _ _ => rfl) (fun _ _ => rfl) (fun _ _ => rfl))

end Cert.Kernel.SharedRun

end
-- ==== Proof.Entry.lean ====
/-
  What the inner-product region finds when it is entered.  The program is a graph convolution on the host
  (degree normalisation, two gather / scatter-add layers, a log-softmax) followed by ONE kernel region that
  forms the matrix of inner products of the node embeddings.  Every host operation precedes the region, so the
  contents of every array at the region's entry are the host operations' results of the launch contents
  (`V`); @main is those operations and then the region (`hmain`); and no host operation writes an argument
  array (`V_main_argK`).
-/
import proofs.«167786_j42322607735202_2_alg».proof.Proof.Gen.KernelIdeal.Launch
import Idealize.ShloMosaic.Lib.Pipeline.FrameBody
import Idealize.ShloMosaic.Lib.Tactic

noncomputable section

namespace Cert.KernelIdeal.Entry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s arrays when the region is entered: after the six stretches of host operations. -/
abbrev V (c : Dev nD) (b : Ref sig .tc) : Buf (Elt F) ((c : Thread nD τ).loc b) :=
  StableHlo.after (List.flatten [hostOps0, hostOps0_1, hostOps0_2, hostOps0_3, hostOps0_4, hostOps0_5]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor

/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5]
    (by simp only [List.Forall]; exact ⟨hostOps0_sub, hostOps0_1_sub, hostOps0_2_sub, hostOps0_3_sub, hostOps0_4_sub, hostOps0_5_sub⟩)
    (by simp only [List.Forall]; exact ⟨hostOps0_fresh, hostOps0_1_fresh, hostOps0_2_fresh, hostOps0_3_fresh, hostOps0_4_fresh, hostOps0_5_fresh⟩) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))

end Cert.KernelIdeal.Entry

end
-- ==== Proof.Body.lean ====
/-
  The body of the inner-product region, run once: it loads its two input blocks (2048 rows of 7 features each),
  forms all 2048 × 2048 inner products of a row of the first with a row of the second, and stores them over the
  whole output block.  Whatever the three staging buffers hold when the body starts, it runs to its end without
  a fault, leaves the two input buffers as they were, and leaves the output buffer holding that product of what
  it loaded (the load of the output buffer that precedes the store is dead).
-/
import proofs.«167786_j42322607735202_2_alg».proof.Proof.Gen.KernelIdeal.Launch
import proofs.«167786_j42322607735202_2_alg».proof.Proof.Gen.KernelIdeal.Skeleton
import proofs.«167786_j42322607735202_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of an input block, and the whole of the output block: the rectangles of the body's accesses. -/
abbrev rIn : Rect S2048x7 := Rect.unit (s := S2048x7) ![0, 0] S2048x7.size inb_S2048x7_S2048x7_0_0
abbrev rOut : Rect S2048x2048 := Rect.unit (s := S2048x2048) ![0, 0] S2048x2048.size inb_S2048x2048_S2048x2048_0_0

/-- What the body leaves in the output buffer when the input buffers hold `x0` and `x1`: its one store, of the
    product of the two loaded blocks. -/
def stored (x0 x1 : Vec F S2048x7 .f32) : Vec F S2048x2048 .f32 :=
  View.canon [⟨rOut, k0_pay1 (View.ld x0 rIn) (View.ld x1 rIn)⟩]

/-- The one store covers the output block. -/
theorem cover (p0 : Vec F S2048x2048 .f32) (y : S2048x2048.Idx) :
    ∃ pc ∈ ([⟨rOut, p0⟩] : List (View.Piece (Elt F) S2048x2048 .f32)), y ∈ pc.1.set :=
  View.cover_of_tiled [⟨rOut, p0⟩] S2048x2048.size (by rfl) y

set_option maxHeartbeats 1000000 in
/-- The body on whole staging buffers, the inputs' at `x0` and `x1` and the output's at anything, runs to the
    continuation holding the inputs' as they were and the output's at `stored x0 x1`. -/
theorem sound_kernel (c : Dev nD) (E : Set ℕ) (i : grid0.Coords)
    (arg2 : Memref sig .tc .vmem S2048x7 .f32) (harg2 : arg2.IsWhole) (arg3 : Memref sig .tc .vmem S2048x7 .f32) (harg3 : arg3.IsWhole)
    (arg4 : Memref sig .tc .vmem S2048x2048 .f32) (harg4 : arg4.IsWhole)
    (x0 x1 : Vec F S2048x7 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (stored x0 x1)) -∗ K ⟨⟩))
      ⊢ wp frame (wpE (defs₀ (F := F)) Variants.none c none) E (cc0__zzt_kernel i arg2 harg2 arg3 harg3 arg4 harg4) K := by
  simp only [cc0__zzt_kernel_eq_skeleton]; unfold cc0__zzt_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

end Cert.KernelIdeal.Body

end
-- ==== Proof.ArraySplit.lean ====
/-
  The region's three windows stand on TWO arrays: both input windows read the node embedding (one its row blocks,
  the other its column blocks of the product), the output window writes the product.  At the region's entry the
  embedding's buffer is held whole; it is divided into two half shares, one for each input window, which is enough
  for windows that only read; the product's buffer goes to the output window whole.
-/
import proofs.«167786_j42322607735202_2_alg».proof.Proof.Entry

noncomputable section

namespace Cert.KernelIdeal.ArraySplit

open Cert.KernelIdeal Cert.KernelIdeal.Gen Cert.KernelIdeal.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The distinct buffers behind the three windows' arrays: the embedding's and the product's. -/
theorem arr_image : Finset.univ.image (Pipeline.arrRef spec0) = ({main_v66, main_v68} : Finset (Ref sig .tc)) := by decide

set_option maxHeartbeats 4000000 in
/-- The buffers behind the windows' arrays, whole at the entry contents, are the windows' arrays at those contents,
    the two readers of the embedding at the two halves of its share. -/
theorem split_arrays (c : Dev nD) (W : (b : Ref sig .tc) → Buf (Elt F) ((c : Thread nD τ).loc b))
    (rd : RDat τ (Elt F) Unit ℕ (UR sig nD τ) ℕ cfg0 c)
    (hq0 : rd.q 0 = fullShare.left) (hq1 : rd.q 1 = fullShare.right)
    (hA : ∀ w, rd.A w = W (Pipeline.arrRef spec0 w)) :
    (Pipeline.arrBufs spec0 c W : sProp 𝕄) ⊢ rd.arrays rd.A := by
  classical
  have s0 : rd.share 0 = fullShare.left := by unfold RDat.share; rw [if_neg (by decide), hq0]
  have s1 : rd.share 1 = fullShare.right := by unfold RDat.share; rw [if_neg (by decide), hq1]
  have s2 : rd.share 2 = fullShare := by unfold RDat.share; rw [if_pos (by decide)]
  have e0 : (cfg0.win (0 : Fin 3)).arr.view.set = Finset.univ := Memref.IsWhole.set_eq_univ (arr_whole0 0)
  have e2 : (cfg0.win (2 : Fin 3)).arr.view.set = Finset.univ := Memref.IsWhole.set_eq_univ (arr_whole0 2)
  unfold RDat.arrays Pipeline.arrBufs
  rw [arr_image, bigSep_insert (by decide), bigSep_singleton, bigSep_W0, hA 0, hA 1, hA 2, s0, s1, s2, e0, e2]
  show iprop(((c : Thread nD τ).loc main_v66 ↦{fullShare} W main_v66) ∗ ((c : Thread nD τ).loc main_v68 ↦{fullShare} W main_v68)) ⊢ _
  iintro ⟨H66, H68⟩
  ihave H := (pointsTo_share (PosShare.mem_left_op_right fullShare)).1 $$ H66
  icases H with ⟨Hl, Hr⟩
  isplitl [Hl]; · iexact Hl
  isplitl [Hr]; · iexact Hr
  iexact H68

end Cert.KernelIdeal.ArraySplit

end
-- ==== Proof.SharedRun.lean ====
/-
  The region launched with an array shared by two windows, once for every use: for any relational description of
  what the body does to its staging buffers (`run_rel`), every weakly fair execution of @main — the host operations,
  then the 36 grid points of the region, each fetching its blocks, running the body and writing its block of the
  product back — terminates without a fault; the arrays the windows stand on end as the description allows, and
  every other array ends as the region found it.  Taken with the description that says nothing of the buffers'
  contents (the body runs from any contents), this is the FRAME of the program at any reading of its floats: no
  host operation writes an argument array and the region writes only the product's array, so the six argument
  arrays end as launched.
-/
import proofs.«167786_j42322607735202_2_alg».proof.Proof.Entry
import proofs.«167786_j42322607735202_2_alg».proof.Proof.Body
import proofs.«167786_j42322607735202_2_alg».proof.Proof.ArraySplit

noncomputable section

namespace Cert.KernelIdeal.SharedRun

open Cert.KernelIdeal Cert.KernelIdeal.Gen Cert.KernelIdeal.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region prefetches no table: its one admissible table contents. -/
abbrev adm : (p : Fin 1) → ((pcfgs (F := F)) p).Adm := fun q => (cfgs q).toPCfg_adm

/-- The staging cells of the program are pairwise distinct. -/
theorem cells_inj : Function.Injective (Pipeline.cellOf (nD := nD) (τ := τ) (Pipeline.pin (pcfgs (F := F)) adm)) := cellOf_inj

set_option backward.isDefEq.respectTransparency.types false in
set_option maxHeartbeats 2000000 in
/-- THE RUN over relational proof data `rdat` whose two input windows hold the two halves of the embedding's
    share: from any memory with zero counters every weakly fair execution of @main terminates, each windowed array
    ends at contents the data allow after every write-back, and every other array ends as the region found it. -/
theorem run_rel (W : (c : Dev nD) → (b : Ref sig .tc) → Buf (Elt F) ((c : Thread nD τ).loc b))
    (hmainW : Pipeline.HMain (Ix := Unit) (Name := ℕ) (U := UR sig nD τ) (Lvl := ℕ) cfgs 0 defs₀ Variants.none m (main (F := F)) W)
    (rdat : (c : Dev nD) → RDat τ (Elt F) Unit ℕ (UR sig nD τ) ℕ cfg0 c)
    (hbody : ∀ c, (rdat c).BodyObligation (defs₀ (F := F)) Variants.none () Set.univ)
    (hq0 : ∀ c, (rdat c).q 0 = fullShare.left) (hq1 : ∀ c, (rdat c).q 1 = fullShare.right)
    (howed : ∀ c t, (rdat c).owed t = 0)
    (hA : ∀ c w, (rdat c).A w = W c (Pipeline.arrRef spec0 w))
    (hΦ : ∀ c t, (rdat c).Φ t = Pipeline.ΦA spec0 c) :
    θ_run defs (onTc (τ := τ) (main (F := F))) (s₀ m ρ) (Pipeline.RDat.FramePost cfg0 rdat W) := by
  classical
  exact Pipeline.RDat.θ_run_region_pf (pcfgs (F := F)) adm (Pipeline.RDat.familyOf (pcfgs (F := F)) adm 0 rdat) () cells_inj (0 : Fin 1) winFacts₀0
    (Pipeline.OwnSemFacts.none (cfg0).spec) (Pipeline.PreFacts.none _) emb₁ defs₀ Variants.none m ρ main
    (fun c => by rw [Pipeline.RDat.familyOf_self]; exact hbody c)
    block_pos0 arr_whole0 stage_whole0 (fun c t => by rw [Pipeline.RDat.familyOf_self]; exact howed c t)
    (G := fun _ => iprop(emp))
    (u₀ := initOf (Pipeline.cells (Pipeline.pin (pcfgs (F := F)) adm) cells_inj) (Pipeline.launchToks (Pipeline.pin (pcfgs (F := F)) adm) cells_inj))
    (hu₀ := by
      iintro Hu; imodintro
      isplitl [Hu]; · iapply (show (ownU _ : sProp 𝕄) ⊢ BI.own (emb₁ (initOf (Pipeline.cells (Pipeline.pin (pcfgs (F := F)) adm) cells_inj) (Pipeline.launchToks (Pipeline.pin (pcfgs (F := F)) adm) cells_inj))) from .rfl); iexact Hu
      iapply (show (BI.emp : sProp 𝕄) ⊢ bigSep Finset.univ (fun _ : Dev nD => (BI.emp : sProp 𝕄)) from by rw [BI.bigSep_emp_const])
      iempintro)
    (V := W) (hmain := hmainW)
    (hsplit := fun c => by rw [Pipeline.RDat.familyOf_self]; exact ArraySplit.split_arrays c (W c) (rdat c) (hq0 c) (hq1 c) (hA c))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) ((pcfgs (F := F)) 0).pre (cfg0).spec c (W c))
    (hX := fun c => by
      iintro ⟨HU, -, -, -, Hp, -⟩; imodintro
      isplitl [Hp]; · iexists _; iexact Hp
      iexact HU)
    (hin := fun c => by
      rw [Pipeline.RDat.familyOf_self, hΦ]
      unfold Pipeline.ΦA; iintro ⟨Hp, Ht, Hr⟩
      isplitl [Hr] <;> iassumption)
    (hout := fun c => by
      rw [Pipeline.RDat.familyOf_self, hΦ, Pipeline.ownSems0_none]; unfold Pipeline.ΦA
      iintro ⟨Hr, Hp⟩
      isplitl [Hp]; · iexact Hp
      isplitr; · iempintro
      iexact Hr)
    (QY := fun c s => ∀ b ∈ Pipeline.restRefsP sig ((pcfgs (F := F)) 0).pre (cfg0).spec, s.mem ((c.tc : Thread nD τ).loc b) = W c b)
    (hY := fun c s' => by
      iintro ⟨-, HU, HSI⟩
      unfold Pipeline.unscopedRestP
      imodintro
      iapply (pointsTo_read_all (Pipeline.restRefsP sig ((pcfgs (F := F)) 0).pre (cfg0).spec) (fun b => (c.tc : Thread nD τ).loc b) (W c) s')
      isplitl [HU] <;> iassumption)
    (hQ := fun s h c => ⟨fun w => by simpa only [Pipeline.RDat.familyOf_self] using (h c).1 w,
      Pipeline.rest_of_restP ((pcfgs (F := F)) 0).pre (cfg0).spec (adm (F := F) 0).1 c (W c) s (fun k => k.elim0) (h c).2.1 (h c).2.2⟩)

/-! ## The frame: the body runs whatever its buffers hold -/

/-- Relational proof data that say nothing of the staging buffers' contents: the arrays as the region finds them,
    any contents handed to the body and any contents taken back, the two readers of the embedding at half shares. -/
def anyData (c : Dev nD) : RDat τ (Elt F) Unit ℕ (UR sig nD τ) ℕ cfg0 c where
  A w := V m c (Pipeline.arrRef spec0 w)
  after _ _ _ _ := True
  Φ _ := Pipeline.ΦA spec0 c
  q := ![fullShare.left, fullShare.right, fullShare]
  owed _ := 0

/-- The body at any point, from any contents of the three current staging buffers. -/
theorem any_point (c : Dev nD) (t : Fin cfg0.N) (Y0 Y1 : Vec F S2048x7 .f32) (Y2 : Vec F S2048x2048 .f32) :
    iprop((anyData m c).Φ t.castSucc ∗ (anyData m c).owesAt () t.castSucc
        ∗ owns (c : Thread nD τ) (st0_0 t) fullShare Y0 ∗ owns (c : Thread nD τ) (st0_1 t) fullShare Y1 ∗ owns (c : Thread nD τ) (st0_2 t) fullShare Y2)
      ⊢ wp frame (wpE (defs₀ (F := F)) Variants.none c none) Set.univ (bodyAt0 t) (fun _ =>
          iprop((anyData m c).Φ t.succ ∗ (anyData m c).owesAt () t.succ
            ∗ (∃ X, ⌜True⌝ ∗ owns (c : Thread nD τ) (st0_0 t) fullShare X) ∗ (∃ X, ⌜True⌝ ∗ owns (c : Thread nD τ) (st0_1 t) fullShare X)
            ∗ (∃ X, ⌜True⌝ ∗ owns (c : Thread nD τ) (st0_2 t) fullShare X))) := by
  unfold bodyAt0
  rw [show (anyData m c).Φ t.succ = (anyData m c).Φ t.castSucc from rfl,
    show (anyData m c).owesAt () t.succ = (anyData m c).owesAt () t.castSucc from rfl]
  iintro ⟨HΦ, Ho, H0, H1, H2⟩
  iapply (Body.sound_kernel c Set.univ _ _ _ _ _ _ _ Y0 Y1 _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists _; isplitr; · ipureintro; trivial
    iexact H0
  isplitl [H1]
  · iexists _; isplitr; · ipureintro; trivial
    iexact H1
  iexists _; isplitr; · ipureintro; trivial
  iexact H2

/-- The body obligation of those data, at every point. -/
theorem any_body (c : Dev nD) : (anyData m c).BodyObligation (defs₀ (F := F)) Variants.none () Set.univ := fun t Y _ => by
  rw [bigSep_W0, bigSep_W0]
  exact any_point m c t (Y 0) (Y 1) (Y 2)

/-- THE FRAME at any reading of the floats: @main runs to its end without a fault and the six argument arrays end
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h c).2 main_arg0 (Pipeline.mem_restRefs_of main_arg0 rfl (by decide))).trans (V_main_arg0 m c),
      ((h c).2 main_arg1 (Pipeline.mem_restRefs_of main_arg1 rfl (by decide))).trans (V_main_arg1 m c),
      ((h c).2 main_arg2 (Pipeline.mem_restRefs_of main_arg2 rfl (by decide))).trans (V_main_arg2 m c),
      ((h c).2 main_arg3 (Pipeline.mem_restRefs_of main_arg3 rfl (by decide))).trans (V_main_arg3 m c),
      ((h c).2 main_arg4 (Pipeline.mem_restRefs_of main_arg4 rfl (by decide))).trans (V_main_arg4 m c),
      ((h c).2 main_arg5 (Pipeline.mem_restRefs_of main_arg5 rfl (by decide))).trans (V_main_arg5 m c)⟩)
    (run_rel m ρ (V m) (hmain m Variants.none) (anyData m) (any_body m) (fun _ => rfl) (fun _ => rfl) (fun _ _ => rfl) (fun _ _ => rfl) (fun _ _ => rfl))

end Cert.KernelIdeal.SharedRun

end
-- ==== Proof.LibDotSum.lean ====
/-
  A contraction over ONE axis, re-indexed by that axis's coordinate.

  A matrix product's sum ranges over the contraction shape's index set; when one axis is contracted that set
  is in bijection with `Fin K`, and the sum becomes the familiar `∑ k : Fin K, L k * R k` once each operand
  is known at the operand indices.
-/
import Idealize.ShloMosaic.PureOps.Ideal
import Idealize.ShloMosaic.PureOps.Ideal.Laws
import Idealize.ShloMosaic.Lib.ValueIdx

noncomputable section

open scoped BigOperators

namespace Idealize.ShloMosaic.LibDotSum

open Idealize.ShloMosaic Idealize.ShloMosaic.ValueIdx

/-- The contraction sum of a one-axis dot as a sum over the contracted coordinate `k : Fin K`, given each
    operand's value at the operand index of `k`. -/
theorem sum_single {sl sr so : Shape} (D : DotDims sl sr so) (K : Nat) (hr : D.contr.rank = 1)
    (hs : D.contr.size ⟨0, by omega⟩ = K) (lhs : sl.Idx → EReal) (rhs : sr.Idx → EReal) (j : so.Idx)
    (L R : Fin K → EReal)
    (hl : ∀ k : Fin K, lhs (D.lhsIdx j ((contrEquiv1 D K hr hs).symm k)) = L k)
    (hrr : ∀ k : Fin K, rhs (D.rhsIdx j ((contrEquiv1 D K hr hs).symm k)) = R k) :
    ∑ q : D.contr.Idx, lhs (D.lhsIdx j q) * rhs (D.rhsIdx j q) = ∑ k : Fin K, L k * R k := by
  rw [← Equiv.sum_comp (contrEquiv1 D K hr hs).symm]
  exact Finset.sum_congr rfl fun k _ => by rw [hl k, hrr k]

/-- The left operand's coordinate on the single contracted axis is the contracted coordinate. -/
theorem lhs_contr_val {sl sr so : Shape} (D : DotDims sl sr so) (K : Nat) (hr : D.contr.rank = 1)
    (hs : D.contr.size ⟨0, by omega⟩ = K) {cl : Fin sl.rank} (hc : D.lhsContracting = [cl]) (j : so.Idx) (k : Fin K) :
    (D.lhsIdx j ((contrEquiv1 D K hr hs).symm k) cl).val = k.val :=
  (D.lhsIdx_val_of_single hc j _).trans (contrEquiv1_symm_val D K hr hs k)

/-- The right operand's coordinate on the single contracted axis is the contracted coordinate. -/
theorem rhs_contr_val {sl sr so : Shape} (D : DotDims sl sr so) (K : Nat) (hr : D.contr.rank = 1)
    (hs : D.contr.size ⟨0, by omega⟩ = K) {cr : Fin sr.rank} (hc : D.rhsContracting = [cr]) (j : so.Idx) (k : Fin K) :
    (D.rhsIdx j ((contrEquiv1 D K hr hs).symm k) cr).val = k.val :=
  (D.rhsIdx_val_of_single hc j _).trans (contrEquiv1_symm_val D K hr hs k)

end Idealize.ShloMosaic.LibDotSum

end
-- ==== Proof.GramSpec.lean ====
/-
  The mathematics of the region.  The product the program forms is the GRAM MATRIX of the node embedding: entry
  (i, j) is the inner product of rows i and j over the seven features.  The body of the region computes, from two
  blocks of 2048 rows each, all inner products of a row of the first with a row of the second: read with exact
  arithmetic, its matrix product into a zero accumulator is that sum and nothing else, and entry (r, s) of what it
  stores depends on row r of the first block and row s of the second only.
-/
import proofs.«167786_j42322607735202_2_alg».proof.Proof.Body
import proofs.«167786_j42322607735202_2_alg».proof.Proof.LibDotSum
import Idealize.ShloMosaic.Lib.Pipeline.Value
import Idealize.ShloMosaic.Lib.ValueIdx
import Idealize.ShloMosaic.PureOps.Ideal.Laws

noncomputable section

namespace Cert.KernelIdeal.Gram

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.ValueIdx

/-- The Gram matrix of 12000 rows of seven features. -/
def gram12000 (z : S12000x7.Idx → EReal) : S12000x12000.Idx → EReal :=
  fun i => ∑ k : Fin 7, z (ix2 (n0 := 12000) (n1 := 7) (i 0) k) * z (ix2 (n0 := 12000) (n1 := 7) (i 1) k)

/-- What the body stores is its product payload of the two buffers' whole contents: its loads read whole
    buffers and its one store writes the whole output buffer. -/
theorem stored_eq (x0 x1 : Vec F S2048x7 .f32) : Body.stored x0 x1 = k0_pay1 x0 x1 := by
  have hz : (![0, 0] : Fin 2 → Nat) = fun _ => 0 := funext fun a => by fin_cases a <;> rfl
  unfold Body.stored
  rw [View.canon_unit_zero hz]
  simp only [View.ld_unit_zero (S := S2048x7) hz]

/-- With exact arithmetic, entry (r, s) of the body's product is the inner product of row r of the first block
    and row s of the second. -/
theorem pay_apply (x0 x1 : Vec Ideal S2048x7 .f32) (j : S2048x2048.Idx) :
    k0_pay1 (F := Ideal) x0 x1 j
      = ∑ k : Fin 7, x0 (ix2 (n0 := 2048) (n1 := 7) (j 0) k) * x1 (ix2 (n0 := 2048) (n1 := 7) (j 1) k) := by
  unfold k0_pay1
  simp only [shapeCast_self]
  refine (Ideal.matmul_constant_zero_apply dot_S2048x7_S2048x7_S2048x2048_1_1_0_0_n_n none x0 x1 j).trans ?_
  refine Idealize.ShloMosaic.LibDotSum.sum_single dot_S2048x7_S2048x7_S2048x2048_1_1_0_0_n_n 7 rfl rfl x0 x1 j _ _ (fun k => ?_) (fun k => ?_)
  · refine congrArg x0 (funext fun a => Fin.ext ?_)
    match a with
    | ⟨0, _⟩ =>
      show (dot_S2048x7_S2048x7_S2048x2048_1_1_0_0_n_n.lhsIdx j _ 0).val = (j 0).val
      unfold DotDims.lhsIdx
      rw [dif_neg (show ¬(0 : Fin S2048x7.rank) ∈ dot_S2048x7_S2048x7_S2048x2048_1_1_0_0_n_n.lhsBatch by decide),
        dif_pos (show (0 : Fin S2048x7.rank) ∈ dot_S2048x7_S2048x7_S2048x2048_1_1_0_0_n_n.lhsNonContracting by decide)]
      rfl
    | ⟨1, _⟩ => exact Idealize.ShloMosaic.LibDotSum.lhs_contr_val dot_S2048x7_S2048x7_S2048x2048_1_1_0_0_n_n 7 rfl rfl rfl j k
  · refine congrArg x1 (funext fun a => Fin.ext ?_)
    match a with
    | ⟨0, _⟩ =>
      show (dot_S2048x7_S2048x7_S2048x2048_1_1_0_0_n_n.rhsIdx j _ 0).val = (j 1).val
      unfold DotDims.rhsIdx
      rw [dif_neg (show ¬(0 : Fin S2048x7.rank) ∈ dot_S2048x7_S2048x7_S2048x2048_1_1_0_0_n_n.rhsBatch by decide),
        dif_pos (show (0 : Fin S2048x7.rank) ∈ dot_S2048x7_S2048x7_S2048x2048_1_1_0_0_n_n.rhsNonContracting by decide)]
      rfl
    | ⟨1, _⟩ => exact Idealize.ShloMosaic.LibDotSum.rhs_contr_val dot_S2048x7_S2048x7_S2048x2048_1_1_0_0_n_n 7 rfl rfl rfl j k

end Cert.KernelIdeal.Gram

end
-- ==== Proof.IdealData.lean ====
/-
  The region read with exact arithmetic: what every staging buffer holds at every grid point, and that the body
  keeps it so.  The grid is 6 × 6; at point (p, q) the first input window holds row block p of the node embedding,
  the second holds row block q, and the output window is block (p, q) of the product.  Twelve thousand rows are
  not a multiple of the block's 2048, so the last row block is cut to 1760 rows: past them an input buffer holds
  words nothing names, and what the body computes from those is never written back.  On the rows inside the
  arrays, what the body leaves in the output buffer is block (p, q) of the Gram matrix of the embedding.
-/
import proofs.«167786_j42322607735202_2_alg».proof.Proof.Entry
import proofs.«167786_j42322607735202_2_alg».proof.Proof.Body
import proofs.«167786_j42322607735202_2_alg».proof.Proof.GramSpec
import Idealize.ShloMosaic.Lib.Pipeline.Value

noncomputable section

namespace Cert.KernelIdeal.GramRun

open Cert.KernelIdeal Cert.KernelIdeal.Gen Cert.KernelIdeal.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.ValueIdx

local notation "𝕀" => MT nD τ sig Unit (Elt Ideal) ℕ (UR sig nD τ) ℕ

variable (W : (c : Dev nD) → (b : Ref sig .tc) → Buf (Elt Ideal) ((c : Thread nD τ).loc b))

/-- The node embedding as the region finds it, through the first input window's array. -/
abbrev Z (c : Dev nD) : Buf (Elt Ideal) ((cfg0.win (0 : Fin 3)).arr.view.loc (c : Thread nD τ)) := W c (Pipeline.arrRef spec0 (0 : Fin 3))

/-- Both input windows stand on that one array. -/
theorem Z_second (c : Dev nD) : W c (Pipeline.arrRef spec0 (1 : Fin 3)) = Z W c := rfl

/-- The Gram matrix of that embedding: what the product's array is to hold. -/
def G (c : Dev nD) : Buf (Elt Ideal) ((cfg0.win (2 : Fin 3)).arr.view.loc (c : Thread nD τ)) := Gram.gram12000 (Z W c)

/-- The blocks at point `t`: the rows of the embedding the two fetches read, and the block of the Gram matrix the
    write-back is to write — each its part inside the array. -/
def blk0 (c : Dev nD) (t : Fin cfg0.N) : (win0_0.xblock (grid0.coords t)).Idx → Elt Ideal .f32 :=
  (win0_0.blk t).view.read (Elt Ideal) (W c (Pipeline.arrRef spec0 (0 : Fin 3)))
def blk1 (c : Dev nD) (t : Fin cfg0.N) : (win0_1.xblock (grid0.coords t)).Idx → Elt Ideal .f32 :=
  (win0_1.blk t).view.read (Elt Ideal) (W c (Pipeline.arrRef spec0 (1 : Fin 3)))
def blkG (c : Dev nD) (t : Fin cfg0.N) : (win0_2.xblock (grid0.coords t)).Idx → Elt Ideal .f32 :=
  (win0_2.blk t).view.read (Elt Ideal) (G W c)

/-- The proof data: the arrays as the region finds them; after the body each buffer holds its block, filled out
    past the array's end by zero (a choice nothing reads); the two readers of the embedding at half shares. -/
def dats (c : Dev nD) : Dat τ (Elt Ideal) Unit ℕ (UR sig nD τ) ℕ cfg0 c where
  A w := W c (Pipeline.arrRef spec0 w)
  after w t := match w with
    | ⟨0, _⟩ => win0_0.fill (grid0.coords t) (fun _ => (0 : EReal)) (blk0 W c t)
    | ⟨1, _⟩ => win0_1.fill (grid0.coords t) (fun _ => (0 : EReal)) (blk1 W c t)
    | ⟨2, _⟩ => win0_2.fill (grid0.coords t) (fun _ => (0 : EReal)) (blkG W c t)
  Φ _ := Pipeline.ΦA spec0 c
  q := ![fullShare.left, fullShare.right, fullShare]
  owed _ := 0

theorem A_eq (c : Dev nD) (w : Fin cfg0.W) : (dats W c).A w = W c (Pipeline.arrRef spec0 w) := by dsimp only [dats]
theorem after0 (c : Dev nD) (t : Fin cfg0.N) : (dats W c).after 0 t = win0_0.fill (grid0.coords t) (fun _ => (0 : EReal)) (blk0 W c t) := by dsimp only [dats]
theorem after1 (c : Dev nD) (t : Fin cfg0.N) : (dats W c).after 1 t = win0_1.fill (grid0.coords t) (fun _ => (0 : EReal)) (blk1 W c t) := by dsimp only [dats]
theorem after2 (c : Dev nD) (t : Fin cfg0.N) : (dats W c).after 2 t = win0_2.fill (grid0.coords t) (fun _ => (0 : EReal)) (blkG W c t) := by dsimp only [dats]

/-! ## What the body finds -/

/-- Equal block indices are cut alike: the cut is a function of the index. -/
theorem hclip0 : ∀ t t' : Fin cfg0.N, (cfg0.win 0).index t = (cfg0.win 0).index t' →
    (cfg0.win 0).clip (cfg0.grid.coords t) = (cfg0.win 0).clip (cfg0.grid.coords t') := fun t t' h => funext fun a => by
  have h' : cc0_transform_0 (grid0.coords t) a = cc0_transform_0 (grid0.coords t') a := congrFun h a
  show Pipeline.Clip.of (cc0_transform_0 (grid0.coords t) a) _ _ = Pipeline.Clip.of (cc0_transform_0 (grid0.coords t') a) _ _
  rw [h']
theorem hclip1 : ∀ t t' : Fin cfg0.N, (cfg0.win 1).index t = (cfg0.win 1).index t' →
    (cfg0.win 1).clip (cfg0.grid.coords t) = (cfg0.win 1).clip (cfg0.grid.coords t') := fun t t' h => funext fun a => by
  have h' : cc0_transform_1 (grid0.coords t) a = cc0_transform_1 (grid0.coords t') a := congrFun h a
  show Pipeline.Clip.of (cc0_transform_1 (grid0.coords t) a) _ _ = Pipeline.Clip.of (cc0_transform_1 (grid0.coords t') a) _ _
  rw [h']

/-- An input buffer holds its block on the rows inside the array, fetched at this point or at an earlier one
    with the same block index (the first window's index moves only every sixth point). -/
theorem before0 (c : Dev nD) (t : Fin cfg0.N) (d) : (dats W c).before 0 t d = win0_0.fill (grid0.coords t) d (blk0 W c t) :=
  ((dats W c).before_in_eq_fetched 0 rfl (fun _ => rfl) hclip0
    (fun t => by rw [after0]; exact win0_0.cut_fill _ _ _) t d).trans (by unfold Dat.fetched Dat.blockOf blk0; rw [A_eq])
theorem before1 (c : Dev nD) (t : Fin cfg0.N) (d) : (dats W c).before 1 t d = win0_1.fill (grid0.coords t) d (blk1 W c t) :=
  ((dats W c).before_in_eq_fetched 1 rfl (fun _ => rfl) hclip1
    (fun t => by rw [after1]; exact win0_1.cut_fill _ _ _) t d).trans (by unfold Dat.fetched Dat.blockOf blk1; rw [A_eq])

/-- The output window is never fetched, -/
theorem noFetch2 : ∀ t : Fin cfg0.N, (cfg0.win 2).fetch t = false :=
  (by decide +kernel : ∀ t : Fin grid0.N, win0_2.fetch t = false)

/-- so its buffer comes to the body holding nothing the proof names: it was written back at the point before. -/
theorem before2 (c : Dev nD) (t : Fin cfg0.N) (d) : (dats W c).before 2 t d = d := by
  unfold Dat.before
  rw [noFetch2 t, if_neg Bool.false_ne_true]
  by_cases ht : t.val = 0
  · rw [if_pos ht]
  · rw [if_neg ht]; dsimp only; rw [if_pos (flush0_2 _)]

end Cert.KernelIdeal.GramRun

end
-- ==== Proof.IdealBody.lean ====
/-
  The body obligation with exact arithmetic.  At point (p, q) the body finds row block p of the embedding in its
  first buffer and row block q in its second, each on the rows inside the array, and anything past them.  Entry
  (r, s) of what it stores is the inner product of row r of the first buffer and row s of the second; for r and s
  inside the array those are rows p·2048 + r and q·2048 + s of the embedding, so the entry is entry
  (p·2048 + r, q·2048 + s) of the Gram matrix: the part of the stored block that the write-back moves is the Gram
  matrix's block, whatever filled the buffers past the array's end.
-/
import proofs.«167786_j42322607735202_2_alg».proof.Proof.IdealData

noncomputable section

namespace Cert.KernelIdeal.GramRun

open Cert.KernelIdeal Cert.KernelIdeal.Gen Cert.KernelIdeal.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.ValueIdx

local notation "𝕀" => MT nD τ sig Unit (Elt Ideal) ℕ (UR sig nD τ) ℕ

variable (W : (c : Dev nD) → (b : Ref sig .tc) → Buf (Elt Ideal) ((c : Thread nD τ).loc b))

/-- The schedule's geometry, decided over the 36 points: the first input window's row block is the output block's
    row block and the second's is its column block; the input blocks span the seven features; and the input blocks
    are cut exactly as the output block is on the matching axis. -/
theorem geom : ∀ t : Fin cfg0.N,
    win0_0.index t 0 = win0_2.index t 0 ∧ win0_1.index t 0 = win0_2.index t 1 ∧ win0_0.index t 1 = 0 ∧ win0_1.index t 1 = 0
    ∧ win0_0.xsize (grid0.coords t) 0 = win0_2.xsize (grid0.coords t) 0 ∧ win0_0.xsize (grid0.coords t) 1 = 7
    ∧ win0_1.xsize (grid0.coords t) 0 = win0_2.xsize (grid0.coords t) 1 ∧ win0_1.xsize (grid0.coords t) 1 = 7 :=
  (by decide +kernel : ∀ t : Fin grid0.N, _)

/-- A row index and a feature index inside the first input window's cut block at `t`. -/
def inRow0 (t : Fin cfg0.N) (r k : Nat) (hr : r < win0_0.xsize (grid0.coords t) 0) (hk : k < win0_0.xsize (grid0.coords t) 1) :
    (win0_0.xblock (grid0.coords t)).Idx :=
  fun (a : Fin 2) => match a with | ⟨0, _⟩ => ⟨r, hr⟩ | ⟨1, _⟩ => ⟨k, hk⟩
/-- The same for the second input window. -/
def inRow1 (t : Fin cfg0.N) (r k : Nat) (hr : r < win0_1.xsize (grid0.coords t) 0) (hk : k < win0_1.xsize (grid0.coords t) 1) :
    (win0_1.xblock (grid0.coords t)).Idx :=
  fun (a : Fin 2) => match a with | ⟨0, _⟩ => ⟨r, hr⟩ | ⟨1, _⟩ => ⟨k, hk⟩

set_option maxHeartbeats 2000000 in
/-- THE BLOCK THE BODY LEAVES: on the part the write-back moves, what the body stores from the two input buffers
    — their blocks on the rows inside the array, anything past them — is the Gram matrix's block. -/
theorem stored_cut (c : Dev nD) (t : Fin cfg0.N) (d0 d1 : S2048x7.Idx → EReal) :
    win0_2.cut (grid0.coords t)
        (Body.stored (F := Ideal) (win0_0.fill (grid0.coords t) d0 (blk0 W c t)) (win0_1.fill (grid0.coords t) d1 (blk1 W c t)))
      = blkG W c t := by
  funext y
  obtain ⟨g0, g1, g2, g3, g4, g5, g6, g7⟩ := geom t
  have h0 : (y 0).val < win0_0.xsize (grid0.coords t) 0 := by rw [g4]; exact (y 0).isLt
  have h1 : (y 1).val < win0_1.xsize (grid0.coords t) 0 := by rw [g6]; exact (y 1).isLt
  show Body.stored (F := Ideal) _ _ (win0_2.xinj (grid0.coords t) y) = blkG W c t y
  rw [Gram.stored_eq, Gram.pay_apply]
  unfold blkG
  rw [View.read_apply]
  unfold G Gram.gram12000
  refine Finset.sum_congr rfl fun k _ => ?_
  have hk0 : k.val < win0_0.xsize (grid0.coords t) 1 := by rw [g5]; exact k.isLt
  have hk1 : k.val < win0_1.xsize (grid0.coords t) 1 := by rw [g7]; exact k.isLt
  have e0 : (ix2 (n0 := 2048) (n1 := 7) ((win0_2.xinj (grid0.coords t) y) 0) k : S2048x7.Idx)
      = win0_0.xinj (grid0.coords t) (inRow0 t (y 0).val k.val h0 hk0) :=
    funext fun a => Fin.ext (by match a with | ⟨0, _⟩ => rfl | ⟨1, _⟩ => rfl)
  have e1 : (ix2 (n0 := 2048) (n1 := 7) ((win0_2.xinj (grid0.coords t) y) 1) k : S2048x7.Idx)
      = win0_1.xinj (grid0.coords t) (inRow1 t (y 1).val k.val h1 hk1) :=
    funext fun a => Fin.ext (by match a with | ⟨0, _⟩ => rfl | ⟨1, _⟩ => rfl)
  rw [e0, e1, Window.fill_xinj, Window.fill_xinj]
  unfold blk0 blk1
  rw [View.read_apply, View.read_apply, Z_second W c]
  refine congrArg₂ (· * ·) (congrArg (Z W c) (funext fun a => Fin.ext ?_)) (congrArg (Z W c) (funext fun a => Fin.ext ?_))
  · match a with
    | ⟨0, _⟩ =>
      show win0_0.index t 0 * 2048 + 1 * (y 0).val = win0_2.index t 0 * 2048 + 1 * (y 0).val
      rw [g0]
    | ⟨1, _⟩ =>
      show win0_0.index t 1 * 7 + 1 * k.val = k.val
      rw [g2]; omega
  · match a with
    | ⟨0, _⟩ =>
      show win0_1.index t 0 * 2048 + 1 * (y 1).val = win0_2.index t 1 * 2048 + 1 * (y 1).val
      rw [g1]
    | ⟨1, _⟩ =>
      show win0_1.index t 1 * 7 + 1 * k.val = k.val
      rw [g3]; omega

/-- What the proof data say the output buffer holds after the body is, on the moved part, that block too. -/
theorem after2_cut (c : Dev nD) (t : Fin cfg0.N) : win0_2.cut (grid0.coords t) ((dats W c).after 2 t) = blkG W c t := by
  rw [after2]; exact win0_2.cut_fill _ _ _

/-- The body at point `t`: the inputs' buffers arrive holding their blocks filled out with anything and leave
    unchanged; the output's arrives holding anything and leaves holding the body's product, which on the moved
    part is the Gram block — all that any of the three obligations states. -/
theorem sound_point (c : Dev nD) (t : Fin cfg0.N) :
    iprop((dats W c).Φ t.castSucc ∗ (dats W c).owesAt () t.castSucc
        ∗ (∃ d, owns (c : Thread nD τ) (st0_0 t) fullShare ((dats W c).before 0 t d))
        ∗ (∃ d, owns (c : Thread nD τ) (st0_1 t) fullShare ((dats W c).before 1 t d))
        ∗ (∃ d, owns (c : Thread nD τ) (st0_2 t) fullShare ((dats W c).before 2 t d)))
      ⊢ wp frame (wpE (defs₀ (F := Ideal)) Variants.none c none) Set.univ (bodyAt0 t) (fun _ =>
          iprop((dats W c).Φ t.succ ∗ (dats W c).owesAt () t.succ
            ∗ (∃ d, owns (c : Thread nD τ) (st0_0 t) fullShare (win0_0.fill (grid0.coords t) d (win0_0.cut (grid0.coords t) ((dats W c).after 0 t))))
            ∗ (∃ d, owns (c : Thread nD τ) (st0_1 t) fullShare (win0_1.fill (grid0.coords t) d (win0_1.cut (grid0.coords t) ((dats W c).after 1 t))))
            ∗ (∃ d, owns (c : Thread nD τ) (st0_2 t) fullShare (win0_2.fill (grid0.coords t) d (win0_2.cut (grid0.coords t) ((dats W c).after 2 t)))))) := by
  unfold bodyAt0
  rw [show (dats W c).Φ t.succ = (dats W c).Φ t.castSucc from rfl,
    show (dats W c).owesAt () t.succ = (dats W c).owesAt () t.castSucc from rfl]
  iintro ⟨HΦ, Ho, ⟨%d0, H0⟩, ⟨%d1, H1⟩, ⟨%d2, H2⟩⟩
  rw [before0 W c t d0, before1 W c t d1, before2 W c t d2]
  have hx : win0_0.cut (grid0.coords t) ((dats W c).after 0 t) = blk0 W c t := by rw [after0]; exact win0_0.cut_fill _ _ _
  have hy : win0_1.cut (grid0.coords t) ((dats W c).after 1 t) = blk1 W c t := by rw [after1]; exact win0_1.cut_fill _ _ _
  rw [hx, hy, after2_cut]
  iapply (Body.sound_kernel (F := Ideal) c Set.univ _ _ _ _ _ _ _
    (win0_0.fill (grid0.coords t) d0 (blk0 W c t)) (win0_1.fill (grid0.coords t) d1 (blk1 W c t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists d0; iexact H0
  isplitl [H1]; · iexists d1; iexact H1
  iexists (Body.stored (F := Ideal) (win0_0.fill (grid0.coords t) d0 (blk0 W c t)) (win0_1.fill (grid0.coords t) d1 (blk1 W c t)))
  rw [← stored_cut W c t d0 d1, Window.fill_cut]; iexact H2

/-- The loose body obligation of the proof data, at every point. -/
theorem body_obligation (c : Dev nD) : Pipeline.BodyObligationLoose (dats W c) (defs₀ (F := Ideal)) Variants.none () Set.univ := fun t => by
  rw [bigSep_W0, bigSep_W0]
  exact sound_point W c t

end Cert.KernelIdeal.GramRun

end
-- ==== Proof.IdealFinal.lean ====
/-
  The whole run with exact arithmetic.  The 36 blocks of the output window, each cut at the array's end, cover
  the 12000 × 12000 product: entry (i, j) lies in the block of point (i / 2048, j / 2048).  Each write-back writes
  the Gram matrix's block, so the product's array ends holding the Gram matrix of the node embedding the host part
  computed; the first result and the arguments, which the region does not touch, end as the region found them.
-/
import proofs.«167786_j42322607735202_2_alg».proof.Proof.IdealBody
import proofs.«167786_j42322607735202_2_alg».proof.Proof.SharedRun

noncomputable section

namespace Cert.KernelIdeal.GramRun

open Cert.KernelIdeal Cert.KernelIdeal.Gen Cert.KernelIdeal.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.ValueIdx

local notation "𝕀" => MT nD τ sig Unit (Elt Ideal) ℕ (UR sig nD τ) ℕ

variable (W : (c : Dev nD) → (b : Ref sig .tc) → Buf (Elt Ideal) ((c : Thread nD τ).loc b))

/-- The output window's schedule in closed form, decided over the 36 points: point `t` is block
    (t / 6, t % 6), of 2048 rows and columns except in the last row and column of blocks, which keep 1760. -/
theorem sched : ∀ t : Fin cfg0.N,
    win0_2.index t 0 = t.val / 6 ∧ win0_2.index t 1 = t.val % 6
    ∧ (t.val / 6 < 5 → win0_2.xsize (grid0.coords t) 0 = 2048) ∧ (t.val / 6 = 5 → win0_2.xsize (grid0.coords t) 0 = 1760)
    ∧ (t.val % 6 < 5 → win0_2.xsize (grid0.coords t) 1 = 2048) ∧ (t.val % 6 = 5 → win0_2.xsize (grid0.coords t) 1 = 1760) :=
  (by decide +kernel : ∀ t : Fin grid0.N, _)

/-- An index of the product is in point `t`'s block iff each coordinate is among the block's coordinates inside
    the array. -/
theorem mem_blk (t : Fin cfg0.N) (i : S12000x12000.Idx) :
    i ∈ (win0_2.blk t).view.set ↔ ∀ a, win0_2.index t a * win0_2.size a ≤ (i a).val ∧ (i a).val < win0_2.index t a * win0_2.size a + win0_2.xsize (grid0.coords t) a := by
  show i ∈ ((View.whole main_v68).slice (win0_2.rect t)).set ↔ _
  rw [View.set_slice_whole, Rect.mem_set_unit]

/-- The blocks cover the product. -/
theorem cover (i : S12000x12000.Idx) : ∃ t : Fin cfg0.N, (cfg0.win 2).flush t = true ∧ i ∈ ((cfg0.win 2).blk t).view.set := by
  have hi0 : (i 0).val < 12000 := (i 0).isLt
  have hi1 : (i 1).val < 12000 := (i 1).isLt
  have hN : (i 0).val / 2048 * 6 + (i 1).val / 2048 < cfg0.N := by rw [show cfg0.N = 36 from N_0]; omega
  refine ⟨⟨(i 0).val / 2048 * 6 + (i 1).val / 2048, hN⟩, flush0_2 _, ?_⟩
  obtain ⟨s0, s1, s2, s3, s4, s5⟩ := sched ⟨(i 0).val / 2048 * 6 + (i 1).val / 2048, hN⟩
  dsimp only at s0 s1 s2 s3 s4 s5
  refine (mem_blk _ i).mpr fun a => ?_
  match a with
  | ⟨0, _⟩ =>
    show win0_2.index _ 0 * 2048 ≤ (i 0).val ∧ (i 0).val < win0_2.index _ 0 * 2048 + win0_2.xsize _ 0
    rw [s0]
    rcases Nat.lt_or_ge (((i 0).val / 2048 * 6 + (i 1).val / 2048) / 6) 5 with h | h
    · rw [s2 h]; omega
    · rw [s3 (by omega)]; omega
  | ⟨1, _⟩ =>
    show win0_2.index _ 1 * 2048 ≤ (i 1).val ∧ (i 1).val < win0_2.index _ 1 * 2048 + win0_2.xsize _ 1
    rw [s1]
    rcases Nat.lt_or_ge (((i 0).val / 2048 * 6 + (i 1).val / 2048) % 6) 5 with h | h
    · rw [s4 h]; omega
    · rw [s5 (by omega)]; omega

/-- After the last write-back the product's array holds the Gram matrix of the embedding. -/
theorem final_gram (c : Dev nD) : (dats W c).arrAt 2 cfg0.N = G W c :=
  (dats W c).arrAt_eq_of_cover 2 (G W c) (fun t _ => after2_cut W c t) (cover)

/-- THE RUN with exact arithmetic, for any entry contents `W` that @main's host part reaches: every weakly fair
    execution of @main terminates; the product's array ends at the Gram matrix of the embedding in `W`, and the
    first result and the arguments, which the region does not touch, end at their contents in `W`. -/
theorem run (m : (ℓ : Loc nD τ sig) → Buf (Elt Ideal) ℓ) (ρ : Dev nD → PrngReg)
    (hmainW : Pipeline.HMain (Ix := Unit) (Name := ℕ) (U := UR sig nD τ) (Lvl := ℕ) cfgs 0 defs₀ Variants.none m (main (F := Ideal)) W) :
    θ_run defs (onTc (τ := τ) (main (F := Ideal))) ⟨m, fun _ => 0, ρ⟩ (fun r => ∀ c : Dev nD,
      r.2.mem ((c.tc : Thread nD τ).loc main_v67) = W c main_v67
      ∧ r.2.mem ((c.tc : Thread nD τ).loc main_v68) = G W c
      ∧ r.2.mem ((c.tc : Thread nD τ).loc main_arg0) = W c main_arg0
      ∧ r.2.mem ((c.tc : Thread nD τ).loc main_arg1) = W c main_arg1
      ∧ r.2.mem ((c.tc : Thread nD τ).loc main_arg2) = W c main_arg2
      ∧ r.2.mem ((c.tc : Thread nD τ).loc main_arg3) = W c main_arg3
      ∧ r.2.mem ((c.tc : Thread nD τ).loc main_arg4) = W c main_arg4
      ∧ r.2.mem ((c.tc : Thread nD τ).loc main_arg5) = W c main_arg5) :=
  (θ_run defs _ _).mono (fun r h c => ⟨(h c).2 main_v67 (Pipeline.mem_restRefs_of main_v67 rfl (by decide)),
      ((((dats W c).toR_arrAt_iff 2 _ _).mp ((h c).1 2)).trans (final_gram W c)),
      (h c).2 main_arg0 (Pipeline.mem_restRefs_of main_arg0 rfl (by decide)),
      (h c).2 main_arg1 (Pipeline.mem_restRefs_of main_arg1 rfl (by decide)),
      (h c).2 main_arg2 (Pipeline.mem_restRefs_of main_arg2 rfl (by decide)),
      (h c).2 main_arg3 (Pipeline.mem_restRefs_of main_arg3 rfl (by decide)),
      (h c).2 main_arg4 (Pipeline.mem_restRefs_of main_arg4 rfl (by decide)),
      (h c).2 main_arg5 (Pipeline.mem_restRefs_of main_arg5 rfl (by decide))⟩)
    (SharedRun.run_rel m ρ W hmainW (fun c => (dats W c).toR) (fun c => (body_obligation W c).toR)
      (fun _ => rfl) (fun _ => rfl) (fun _ _ => rfl) (fun c w => A_eq W c w) (fun _ _ => rfl))

end Cert.KernelIdeal.GramRun

end
-- ==== Proof.RefStages.lean ====
/-
  The reference program's values as pure functions of its six arguments, cut at the mathematics:
  a two-layer graph convolution with symmetric normalisation over the edge list extended by one
  self-loop per node, the row-wise log-softmax of the node embedding, and the embedding's Gram
  matrix. Each definition is the composition of the program's printed operations, in the printed
  order, over the same shape records and facts; nothing is simplified here.
-/
import proofs.«167786_j42322607735202_2_alg».proof.ReferenceIdeal
import proofs.«167786_j42322607735202_2_alg».proof.Proof.Gen.ReferenceIdeal

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The contents of a tensor value of shape `s` and element type `e`. -/
local notation "𝕋[" s ", " e "]" => BufTy.Contents (Elt F) (⟨s, e⟩ : BufTy)

/-! ## The edge list

The argument `x1` holds 384000 directed edges, row 0 the source nodes and row 1 the destination
nodes; each is extended by the 12000 self-loops `(n, n)`. -/

/-- The node numbers `0 … 11999`. -/
def nodes : 𝕋[S12000, .i32] := iotaInDim S12000 32 0

/-- The sources of the 396000 edges: row 0 of the edge list, then every node. -/
def srcRows (x1 : 𝕋[S2x384000, .i32]) : 𝕋[S396000, .i32] :=
  concatenate S396000 0
    [⟨S384000, shapeCast S384000 (extractStridedSlice S1x384000 ![0, 0] x1 slices_S2x384000_S1x384000_0_0)
        shapeCasts_S1x384000_S384000⟩,
     ⟨S12000, nodes (F := F)⟩]
    concatenates_S384000_S12000_S396000_d0

/-- The destinations of the 396000 edges: row 1 of the edge list, then every node. -/
def dstRows (x1 : 𝕋[S2x384000, .i32]) : 𝕋[S396000, .i32] :=
  concatenate S396000 0
    [⟨S384000, shapeCast S384000 (extractStridedSlice S1x384000 ![1, 0] x1 slices_S2x384000_S1x384000_1_0)
        shapeCasts_S1x384000_S384000⟩,
     ⟨S12000, nodes (F := F)⟩]
    concatenates_S384000_S12000_S396000_d0

/-- A column of node numbers as a table of gather start indices: a negative number counts from the
    end (`v + 12000` where `v < 0`), and the column becomes `396000 × 1`. -/
def normIdx (v : 𝕋[S396000, .i32]) : 𝕋[S396000x1, .i32] :=
  broadcastInDim S396000x1 ![0] bcast_S396000_S396000x1_0
    (select
      (cmpi .slt v (broadcastInDim S396000 ![] bcast_S_S396000 (constantI S_ 32 0#32)))
      (addi v (broadcastInDim S396000 ![] bcast_S_S396000 (constantI S_ 32 12000#32)))
      v)

/-- A column of node numbers as a table of scatter indices, `396000 × 1`. -/
def colIdx (v : 𝕋[S396000, .i32]) : 𝕋[S396000x1, .i32] :=
  broadcastInDim S396000x1 ![0] bcast_S396000_S396000x1_0 v

/-! ## The symmetric normalisation -/

/-- The in-degree of every node: one added at each edge's destination. -/
def inDegree (x1 : 𝕋[S2x384000, .i32]) : 𝕋[S12000, .f32] :=
  Host.scatterAdd (F := F) scatter_S12000_S396000x1_S396000_n_0_0_1
    (broadcastInDim S12000 ![] bcast_S_S12000 (constant (F := F) S_ .f32 0x00000000#32))
    (colIdx (F := F) (dstRows (F := F) x1))
    (broadcastInDim S396000 ![] bcast_S_S396000 (constant (F := F) S_ .f32 0x3F800000#32))

/-- `deg^(-1/2)` where the degree is positive, zero elsewhere. -/
def invSqrtDegree (x1 : 𝕋[S2x384000, .i32]) : 𝕋[S12000, .f32] :=
  select
    (cmpf (F := F) .ogt (inDegree (F := F) x1)
      (broadcastInDim S12000 ![] bcast_S_S12000 (constant (F := F) S_ .f32 0x00000000#32)))
    (Host.rsqrt (F := F)
      (maximumf (F := F) (inDegree (F := F) x1)
        (broadcastInDim S12000 ![] bcast_S_S12000 (constant (F := F) S_ .f32 0x3F800000#32))))
    (broadcastInDim S12000 ![] bcast_S_S12000 (id (constant (F := F) S_ .f32 0x00000000#32)))

/-- The weight of every edge: the normalisation at its source times the normalisation at its
    destination. -/
def edgeWeight (x1 : 𝕋[S2x384000, .i32]) : 𝕋[S396000, .f32] :=
  mulf (F := F)
    (Host.gather gather_S12000_S396000x1_S396000_n_0_n_n_0_1_1 (invSqrtDegree (F := F) x1)
      (normIdx (F := F) (srcRows (F := F) x1)))
    (Host.gather gather_S12000_S396000x1_S396000_n_0_n_n_0_1_1 (invSqrtDegree (F := F) x1)
      (normIdx (F := F) (dstRows (F := F) x1)))

/-! ## The two convolution layers

A layer takes the transformed features `h`, reads the source row of every edge, scales it by the
edge's weight, adds it into the destination row, and adds the bias to every row. -/

/-- The first layer's propagation and bias, sixteen features wide. -/
def propagate16 (h : 𝕋[S12000x16, .f32]) (x1 : 𝕋[S2x384000, .i32]) (b : 𝕋[S16, .f32]) : 𝕋[S12000x16, .f32] :=
  addf (F := F)
    (Host.scatterAdd (F := F) scatter_S12000x16_S396000x1_S396000x16_1_0_0_1
      (broadcastInDim S12000x16 ![] bcast_S_S12000x16 (constant (F := F) S_ .f32 0x00000000#32))
      (colIdx (F := F) (dstRows (F := F) x1))
      (mulf (F := F)
        (Host.gather gather_S12000x16_S396000x1_S396000x16_1_0_n_n_0_1_116 h (normIdx (F := F) (srcRows (F := F) x1)))
        (broadcastInDim S396000x16 ![0, 1] bcast_S396000x1_S396000x16_0_1
          (broadcastInDim S396000x1 ![0] bcast_S396000_S396000x1_0 (edgeWeight (F := F) x1)))))
    (broadcastInDim S12000x16 ![0, 1] bcast_S1x16_S12000x16_0_1 (broadcastInDim S1x16 ![1] bcast_S16_S1x16_1 b))

/-- The rectifier: the maximum with zero, elementwise. -/
def relu16 (y : 𝕋[S12000x16, .f32]) : 𝕋[S12000x16, .f32] :=
  maximumf (F := F) y (broadcastInDim S12000x16 ![] bcast_S_S12000x16 (constant (F := F) S_ .f32 0x00000000#32))

/-- The second layer's propagation and bias, seven features wide. -/
def propagate7 (h : 𝕋[S12000x7, .f32]) (x1 : 𝕋[S2x384000, .i32]) (b : 𝕋[S7, .f32]) : 𝕋[S12000x7, .f32] :=
  addf (F := F)
    (Host.scatterAdd (F := F) scatter_S12000x7_S396000x1_S396000x7_1_0_0_1
      (broadcastInDim S12000x7 ![] bcast_S_S12000x7 (constant (F := F) S_ .f32 0x00000000#32))
      (colIdx (F := F) (dstRows (F := F) x1))
      (mulf (F := F)
        (Host.gather gather_S12000x7_S396000x1_S396000x7_1_0_n_n_0_1_17 h (normIdx (F := F) (srcRows (F := F) x1)))
        (broadcastInDim S396000x7 ![0, 1] bcast_S396000x1_S396000x7_0_1
          (broadcastInDim S396000x1 ![0] bcast_S396000_S396000x1_0 (edgeWeight (F := F) x1)))))
    (broadcastInDim S12000x7 ![0, 1] bcast_S1x7_S12000x7_0_1 (broadcastInDim S1x7 ![1] bcast_S7_S1x7_1 b))

/-- The hidden features: the first layer on `x0 · x2`, rectified. -/
def hidden (x0 : 𝕋[S12000x500, .f32]) (x1 : 𝕋[S2x384000, .i32]) (x2 : 𝕋[S500x16, .f32]) (x3 : 𝕋[S16, .f32]) :
    𝕋[S12000x16, .f32] :=
  relu16 (F := F)
    (propagate16 (F := F) (Host.dotGeneral (F := F) dot_S12000x500_S500x16_S12000x16_1_0_0_1_n_n none x0 x2) x1 x3)

/-- The node embedding: the second layer on `hidden · x4`. -/
def embedding (x0 : (⟨S12000x500, .f32⟩ : BufTy).Contents (Elt F)) (x1 : (⟨S2x384000, .i32⟩ : BufTy).Contents (Elt F))
    (x2 : (⟨S500x16, .f32⟩ : BufTy).Contents (Elt F)) (x3 : (⟨S16, .f32⟩ : BufTy).Contents (Elt F))
    (x4 : (⟨S16x7, .f32⟩ : BufTy).Contents (Elt F)) (x5 : (⟨S7, .f32⟩ : BufTy).Contents (Elt F)) :
    (⟨S12000x7, .f32⟩ : BufTy).Contents (Elt F) :=
  propagate7 (F := F)
    (Host.dotGeneral (F := F) dot_S12000x16_S16x7_S12000x7_1_0_0_1_n_n none (hidden (F := F) x0 x1 x2 x3) x4) x1 x5

/-! ## The row-wise log-softmax -/

/-- Every row's maximum (the maximum with minus infinity once more, as printed), as a column. -/
def rowMax (z : 𝕋[S12000x7, .f32]) : 𝕋[S12000, .f32] :=
  maximumf (F := F)
    (broadcastInDim S12000 ![] bcast_S_S12000 (constant (F := F) S_ .f32 0xFF800000#32))
    (Host.reduce (FloatOps.maximumf (F := F)) z (constant (F := F) S_ .f32 0xFF800000#32)
      reducesTo_S12000x7_S12000_d1 h_S_)

/-- Every entry less its row's maximum. -/
def shifted (z : 𝕋[S12000x7, .f32]) : 𝕋[S12000x7, .f32] :=
  subf (F := F) z
    (broadcastInDim S12000x7 ![0, 1] bcast_S12000x1_S12000x7_0_1
      (broadcastInDim S12000x1 ![0] bcast_S12000_S12000x1_0 (rowMax (F := F) z)))

/-- The logarithm of every row's sum of exponentials of the shifted entries, as a `12000 × 1` column. -/
def logSumExp (z : 𝕋[S12000x7, .f32]) : 𝕋[S12000x1, .f32] :=
  Host.log (F := F)
    (broadcastInDim S12000x1 ![0] bcast_S12000_S12000x1_0
      (Host.reduceAdd (F := F) (Host.exp (F := F) (shifted (F := F) z)) (constant (F := F) S_ .f32 0x00000000#32)
        reducesTo_S12000x7_S12000_d1 h_S_))

/-- The row-wise log-softmax: the shifted entries less the logarithm of their row's sum of
    exponentials. -/
def logSoftmax (z : (⟨S12000x7, .f32⟩ : BufTy).Contents (Elt F)) : (⟨S12000x7, .f32⟩ : BufTy).Contents (Elt F) :=
  subf (F := F) (shifted (F := F) z)
    (broadcastInDim S12000x7 ![0, 1] bcast_S12000x1_S12000x7_0_1 (logSumExp (F := F) z))

/-! ## The Gram matrix -/

/-- The embedding times its own transpose. -/
def gram (z : (⟨S12000x7, .f32⟩ : BufTy).Contents (Elt F)) : (⟨S12000x12000, .f32⟩ : BufTy).Contents (Elt F) :=
  Host.dotGeneral dot_S12000x7_S7x12000_S12000x12000_1_0_0_1_n_n none z
    (transpose S7x12000 [1, 0] z transposes_S12000x7_S7x12000_1_0)

end Cert.ReferenceIdeal.Stages

end
-- ==== Proof.HostTerm.lean ====
/-
  The host part of the program is the reference's, operation for operation: at the region's entry the node
  embedding is the reference's embedding of the launch arguments, and the first result, which no later step
  touches, is its row-wise log-softmax.
-/
import proofs.«167786_j42322607735202_2_alg».proof.Proof.Entry
import proofs.«167786_j42322607735202_2_alg».proof.Proof.RefStages
import Idealize.ShloMosaic.Lib.StableHlo.Run

noncomputable section

namespace Cert.KernelIdeal.HostTerm

open Cert.KernelIdeal Cert.KernelIdeal.Gen Cert.KernelIdeal.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.StableHlo

variable (m : (ℓ : Loc nD τ sig) → Buf (Elt F) ℓ)

set_option maxRecDepth 200000 in
set_option maxHeartbeats 40000000 in
/-- The node embedding the region reads is the reference's embedding of the arguments. -/
theorem V_embedding (c : Dev nD) :
    V m c main_v66 = Cert.ReferenceIdeal.Stages.embedding (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  dsimp only [V]
  simp only [hostOps0, hostOps0_1, hostOps0_2, hostOps0_3, hostOps0_4, hostOps0_5, List.flatten_cons, List.flatten_nil, List.append_nil, List.cons_append, List.nil_append]
  after_results_simp <;> rfl

set_option maxRecDepth 200000 in
set_option maxHeartbeats 40000000 in
/-- The first result is the row-wise log-softmax of that embedding. -/
theorem V_logSoftmax (c : Dev nD) :
    V m c main_v67 = Cert.ReferenceIdeal.Stages.logSoftmax (F := F) (Cert.ReferenceIdeal.Stages.embedding (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  dsimp only [V]
  simp only [hostOps0, hostOps0_1, hostOps0_2, hostOps0_3, hostOps0_4, hostOps0_5, List.flatten_cons, List.flatten_nil, List.append_nil, List.cons_append, List.nil_append]
  after_results_simp <;> rfl

end Cert.KernelIdeal.HostTerm

end
-- ==== Proof.RefGram.lean ====
/-
  The Gram matrix of the node embedding, read at an index at the ideal values: entry (r, c) is the
  sum over the seven features of the products of row r's and row c's entries.
-/
import proofs.«167786_j42322607735202_2_alg».proof.Proof.RefStages
import Idealize.ShloMosaic.PureOps.Ideal.Laws
import Idealize.ShloMosaic.Lib.ValueIdx
import Idealize.ShloMosaic.Lib.Pipeline.Value

noncomputable section

namespace Cert.ReferenceIdeal.Stages

open Cert.ReferenceIdeal Cert.ReferenceIdeal.Gen Idealize.ShloMosaic Idealize.ShloMosaic.TcCoe Idealize.SL.Sem Idealize.ShloMosaic.StableHlo
open scoped BigOperators

/-- The product's dimension numbers contract one axis, of extent seven: the bijection between its
    contraction indices and the seven feature numbers. -/
abbrev featEquiv : dot_S12000x7_S7x12000_S12000x12000_1_0_0_1_n_n.contr.Idx ≃ Fin 7 :=
  ValueIdx.contrEquiv1 dot_S12000x7_S7x12000_S12000x12000_1_0_0_1_n_n 7 rfl rfl

/-- The left operand's index at result index i and feature k is (row i 0, feature k). -/
theorem gram_lhsIdx (i : S12000x12000.Idx) (k : Fin 7) :
    dot_S12000x7_S7x12000_S12000x12000_1_0_0_1_n_n.lhsIdx i (featEquiv.symm k) = ValueIdx.ix2 (i 0) k := by
  funext a
  apply Fin.ext
  match a with
  | ⟨0, _⟩ => rfl
  | ⟨1, _⟩ =>
    exact (DotDims.lhsIdx_val_of_single dot_S12000x7_S7x12000_S12000x12000_1_0_0_1_n_n (cl := 1) rfl i _).trans
      (ValueIdx.contrEquiv1_symm_val dot_S12000x7_S7x12000_S12000x12000_1_0_0_1_n_n 7 rfl rfl k)

/-- The transposed right operand at result index i and feature k is the embedding at
    (row i 1, feature k). -/
theorem gram_rhs (z : (⟨S12000x7, .f32⟩ : BufTy).Contents (Elt Ideal)) (i : S12000x12000.Idx) (k : Fin 7) :
    transpose S7x12000 [1, 0] z transposes_S12000x7_S7x12000_1_0
        (dot_S12000x7_S7x12000_S12000x12000_1_0_0_1_n_n.rhsIdx i (featEquiv.symm k))
      = z (ValueIdx.ix2 (i 1) k) := by
  apply transpose_apply
  intro b
  match b with
  | ⟨0, _⟩ =>
    exact ((DotDims.rhsIdx_val_of_single dot_S12000x7_S7x12000_S12000x12000_1_0_0_1_n_n (cr := 0) rfl i _).trans
      (ValueIdx.contrEquiv1_symm_val dot_S12000x7_S7x12000_S12000x12000_1_0_0_1_n_n 7 rfl rfl k)).symm
  | ⟨1, _⟩ => rfl

/-- Entry i of the Gram matrix is the sum over the seven features of the products of the two rows'
    entries. -/
theorem gram_apply (z : (⟨S12000x7, .f32⟩ : BufTy).Contents (Elt Ideal)) (i : S12000x12000.Idx) :
    gram (F := Ideal) z i = ∑ k : Fin 7, z (ValueIdx.ix2 (i 0) k) * z (ValueIdx.ix2 (i 1) k) := by
  simp only [gram, Host.dotGeneral]
  rw [Ideal.dotGeneral_apply, ← Equiv.sum_comp featEquiv.symm]
  refine Finset.sum_congr rfl fun k _ => ?_
  rw [gram_lhsIdx, gram_rhs]
  rfl

end Cert.ReferenceIdeal.Stages

end
-- ==== Proof.Bridge.lean ====
/-
  The two programs meet.  Their host parts are one computation, so they reach the same node embedding; the
  reference then multiplies the embedding by its own transpose, and the kernel's region ends with the embedding's
  Gram matrix: entry (i, j) of either is the sum over the seven features of the products of rows i and j.
-/
import proofs.«167786_j42322607735202_2_alg».proof.Proof.IdealFinal
import proofs.«167786_j42322607735202_2_alg».proof.Proof.HostTerm
import proofs.«167786_j42322607735202_2_alg».proof.Proof.RefGram

noncomputable section

namespace Cert.KernelIdeal.Bridge

open Cert.KernelIdeal Cert.KernelIdeal.Gen Cert.KernelIdeal.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt Ideal) ℓ)

/-- The kernel's run with exact arithmetic from the launch contents `m`: the region's entry contents are the host
    part's results of `m`, which leave the arguments as launched. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v67) = V m c main_v67
      ∧ r.2.mem ((c.tc : Thread nD τ).loc main_v68) = GramRun.G (V m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1, (h c).2.1,
      ((h c).2.2.1).trans (V_main_arg0 m c),
      ((h c).2.2.2.1).trans (V_main_arg1 m c),
      ((h c).2.2.2.2.1).trans (V_main_arg2 m c),
      ((h c).2.2.2.2.2.1).trans (V_main_arg3 m c),
      ((h c).2.2.2.2.2.2.1).trans (V_main_arg4 m c),
      ((h c).2.2.2.2.2.2.2).trans (V_main_arg5 m c)⟩)
    (GramRun.run (V m) m ρ (hmain m Variants.none))

/-- The reference's product of its embedding of the kernel's arguments is the Gram matrix the region ends with. -/
theorem gram_eq (c : Dev nD) :
    Cert.ReferenceIdeal.Stages.gram (F := Ideal) (Cert.ReferenceIdeal.Stages.embedding (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
      = GramRun.G (V m) c := by
  funext i
  rw [Cert.ReferenceIdeal.Stages.gram_apply]
  show _ = Gram.gram12000 (V m c main_v66) i
  rw [HostTerm.V_embedding]
  rfl

end Cert.KernelIdeal.Bridge

end
-- ==== Proof.RefRun.lean ====
/-
  The reference program's @main as the list of its 103 host operations — the three called functions'
  operations in their calls' places, over the calls' own buffers — and its run read back: every weakly
  fair execution terminates with the two result buffers at the stages' functions of the arguments'
  launch contents (the row-wise log-softmax of the node embedding, and the embedding's Gram matrix),
  the six arguments unchanged.
-/
import proofs.«167786_j42322607735202_2_alg».proof.Proof.RefStages
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 103 operations, in order: its own eighty-two, and in the places of its three calls the
    callee's three (the select against a broadcast zero), three (the rectifier) and fifteen (the row-wise
    log-softmax), each over that call's buffers. -/
abbrev ops : List (HloOp τ sig (Elt F)) :=
  [ nullary main_v0 (iotaInDim S12000 32 0),
    unary main_arg1 main_v1 ((extractStridedSlice S1x384000 ![0, 0] · slices_S2x384000_S1x384000_0_0) : (⟨S2x384000, .i32⟩ : BufTy).Contents (Elt F) → (⟨S1x384000, .i32⟩ : BufTy).Contents (Elt F)),
    reshape main_v1 main_v2 rfl shapeCasts_S1x384000_S384000,
    binary main_v2 main_v0 main_v3 ((fun a b => concatenate S396000 0 [⟨S384000, a⟩, ⟨S12000, b⟩] concatenates_S384000_S12000_S396000_d0) : (⟨S384000, .i32⟩ : BufTy).Contents (Elt F) → (⟨S12000, .i32⟩ : BufTy).Contents (Elt F) → (⟨S396000, .i32⟩ : BufTy).Contents (Elt F)),
    unary main_arg1 main_v4 ((extractStridedSlice S1x384000 ![1, 0] · slices_S2x384000_S1x384000_1_0) : (⟨S2x384000, .i32⟩ : BufTy).Contents (Elt F) → (⟨S1x384000, .i32⟩ : BufTy).Contents (Elt F)),
    reshape main_v4 main_v5 rfl shapeCasts_S1x384000_S384000,
    binary main_v5 main_v0 main_v6 ((fun a b => concatenate S396000 0 [⟨S384000, a⟩, ⟨S12000, b⟩] concatenates_S384000_S12000_S396000_d0) : (⟨S384000, .i32⟩ : BufTy).Contents (Elt F) → (⟨S12000, .i32⟩ : BufTy).Contents (Elt F) → (⟨S396000, .i32⟩ : BufTy).Contents (Elt F)),
    nullary main_cst (constant S_ .f32 0x3F800000#32),
    unary main_cst main_v7 (broadcastInDim S396000 ![] bcast_S_S396000 : (⟨S_, .f32⟩ : BufTy).Contents (Elt F) → (⟨S396000, .f32⟩ : BufTy).Contents (Elt F)),
    nullary main_cst_0 (constant S_ .f32 0x00000000#32),
    unary main_cst_0 main_v8 (broadcastInDim S12000 ![] bcast_S_S12000 : (⟨S_, .f32⟩ : BufTy).Contents (Elt F) → (⟨S12000, .f32⟩ : BufTy).Contents (Elt F)),
    unary main_v6 main_v9 (broadcastInDim S396000x1 ![0] bcast_S396000_S396000x1_0 : (⟨S396000, .i32⟩ : BufTy).Contents (Elt F) → (⟨S396000x1, .i32⟩ : BufTy).Contents (Elt F)),
    ternary main_v8 main_v9 main_v7 main_v10 ((fun x i u => Host.scatterAdd scatter_S12000_S396000x1_S396000_n_0_0_1 x i u) : (⟨S12000, .f32⟩ : BufTy).Contents (Elt F) → (⟨S396000x1, .i32⟩ : BufTy).Contents (Elt F) → (⟨S396000, .f32⟩ : BufTy).Contents (Elt F) → (⟨S12000, .f32⟩ : BufTy).Contents (Elt F)),
    nullary main_cst_1 (constant S_ .f32 0x00000000#32),
    unary main_cst_1 main_v11 (broadcastInDim S12000 ![] bcast_S_S12000 : (⟨S_, .f32⟩ : BufTy).Contents (Elt F) → (⟨S12000, .f32⟩ : BufTy).Contents (Elt F)),
    binary main_v10 main_v11 main_v12 (cmpf .ogt : (⟨S12000, .f32⟩ : BufTy).Contents (Elt F) → (⟨S12000, .f32⟩ : BufTy).Contents (Elt F) → (⟨S12000, .i1⟩ : BufTy).Contents (Elt F)),
    nullary main_cst_2 (constant S_ .f32 0x3F800000#32),
    unary main_cst_2 main_v13 (broadcastInDim S12000 ![] bcast_S_S12000 : (⟨S_, .f32⟩ : BufTy).Contents (Elt F) → (⟨S12000, .f32⟩ : BufTy).Contents (Elt F)),
    binary main_v10 main_v13 main_v14 (maximumf : (⟨S12000, .f32⟩ : BufTy).Contents (Elt F) → (⟨S12000, .f32⟩ : BufTy).Contents (Elt F) → (⟨S12000, .f32⟩ : BufTy).Contents (Elt F)),
    unary main_v14 main_v15 (Host.rsqrt : (⟨S12000, .f32⟩ : BufTy).Contents (Elt F) → (⟨S12000, .f32⟩ : BufTy).Contents (Elt F)),
    nullary main_cst_3 (constant S_ .f32 0x00000000#32),
    TRef.unary (.of main_cst_3 : TRef sig ⟨S_, .f32⟩) (.of main_call0_v0 : TRef sig ⟨S_, .f32⟩) id,
    TRef.unary (.of main_call0_v0 : TRef sig ⟨S_, .f32⟩) (.of main_call0_v1 : TRef sig ⟨S12000, .f32⟩) (broadcastInDim S12000 ![] bcast_S_S12000),
    TRef.ternary (.of main_v12 : TRef sig ⟨S12000, .i1⟩) (.of main_v15 : TRef sig ⟨S12000, .f32⟩) (.of main_call0_v1 : TRef sig ⟨S12000, .f32⟩) (.of main_v16 : TRef sig ⟨S12000, .f32⟩) select,
    nullary main_c (constantI S_ 32 0#32),
    unary main_c main_v17 (broadcastInDim S396000 ![] bcast_S_S396000 : (⟨S_, .i32⟩ : BufTy).Contents (Elt F) → (⟨S396000, .i32⟩ : BufTy).Contents (Elt F)),
    binary main_v3 main_v17 main_v18 (cmpi .slt : (⟨S396000, .i32⟩ : BufTy).Contents (Elt F) → (⟨S396000, .i32⟩ : BufTy).Contents (Elt F) → (⟨S396000, .i1⟩ : BufTy).Contents (Elt F)),
    nullary main_c_4 (constantI S_ 32 12000#32),
    unary main_c_4 main_v19 (broadcastInDim S396000 ![] bcast_S_S396000 : (⟨S_, .i32⟩ : BufTy).Contents (Elt F) → (⟨S396000, .i32⟩ : BufTy).Contents (Elt F)),
    binary main_v3 main_v19 main_v20 (addi : (⟨S396000, .i32⟩ : BufTy).Contents (Elt F) → (⟨S396000, .i32⟩ : BufTy).Contents (Elt F) → (⟨S396000, .i32⟩ : BufTy).Contents (Elt F)),
    ternary main_v18 main_v20 main_v3 main_v21 (select : (⟨S396000, .i1⟩ : BufTy).Contents (Elt F) → (⟨S396000, .i32⟩ : BufTy).Contents (Elt F) → (⟨S396000, .i32⟩ : BufTy).Contents (Elt F) → (⟨S396000, .i32⟩ : BufTy).Contents (Elt F)),
    unary main_v21 main_v22 (broadcastInDim S396000x1 ![0] bcast_S396000_S396000x1_0 : (⟨S396000, .i32⟩ : BufTy).Contents (Elt F) → (⟨S396000x1, .i32⟩ : BufTy).Contents (Elt F)),
    binary main_v16 main_v22 main_v23 ((fun x i => Host.gather gather_S12000_S396000x1_S396000_n_0_n_n_0_1_1 x i) : (⟨S12000, .f32⟩ : BufTy).Contents (Elt F) → (⟨S396000x1, .i32⟩ : BufTy).Contents (Elt F) → (⟨S396000, .f32⟩ : BufTy).Contents (Elt F)),
    nullary main_c_5 (constantI S_ 32 0#32),
    unary main_c_5 main_v24 (broadcastInDim S396000 ![] bcast_S_S396000 : (⟨S_, .i32⟩ : BufTy).Contents (Elt F) → (⟨S396000, .i32⟩ : BufTy).Contents (Elt F)),
    binary main_v6 main_v24 main_v25 (cmpi .slt : (⟨S396000, .i32⟩ : BufTy).Contents (Elt F) → (⟨S396000, .i32⟩ : BufTy).Contents (Elt F) → (⟨S396000, .i1⟩ : BufTy).Contents (Elt F)),
    nullary main_c_6 (constantI S_ 32 12000#32),
    unary main_c_6 main_v26 (broadcastInDim S396000 ![] bcast_S_S396000 : (⟨S_, .i32⟩ : BufTy).Contents (Elt F) → (⟨S396000, .i32⟩ : BufTy).Contents (Elt F)),
    binary main_v6 main_v26 main_v27 (addi : (⟨S396000, .i32⟩ : BufTy).Contents (Elt F) → (⟨S396000, .i32⟩ : BufTy).Contents (Elt F) → (⟨S396000, .i32⟩ : BufTy).Contents (Elt F)),
    ternary main_v25 main_v27 main_v6 main_v28 (select : (⟨S396000, .i1⟩ : BufTy).Contents (Elt F) → (⟨S396000, .i32⟩ : BufTy).Contents (Elt F) → (⟨S396000, .i32⟩ : BufTy).Contents (Elt F) → (⟨S396000, .i32⟩ : BufTy).Contents (Elt F)),
    unary main_v28 main_v29 (broadcastInDim S396000x1 ![0] bcast_S396000_S396000x1_0 : (⟨S396000, .i32⟩ : BufTy).Contents (Elt F) → (⟨S396000x1, .i32⟩ : BufTy).Contents (Elt F)),
    binary main_v16 main_v29 main_v30 ((fun x i => Host.gather gather_S12000_S396000x1_S396000_n_0_n_n_0_1_1 x i) : (⟨S12000, .f32⟩ : BufTy).Contents (Elt F) → (⟨S396000x1, .i32⟩ : BufTy).Contents (Elt F) → (⟨S396000, .f32⟩ : BufTy).Contents (Elt F)),
    binary main_v23 main_v30 main_v31 (mulf : (⟨S396000, .f32⟩ : BufTy).Contents (Elt F) → (⟨S396000, .f32⟩ : BufTy).Contents (Elt F) → (⟨S396000, .f32⟩ : BufTy).Contents (Elt F)),
    binary main_arg0 main_arg2 main_v32 ((fun l r => Host.dotGeneral dot_S12000x500_S500x16_S12000x16_1_0_0_1_n_n none l r) : (⟨S12000x500, .f32⟩ : BufTy).Contents (Elt F) → (⟨S500x16, .f32⟩ : BufTy).Contents (Elt F) → (⟨S12000x16, .f32⟩ : BufTy).Contents (Elt F)),
    nullary main_c_7 (constantI S_ 32 0#32),
    unary main_c_7 main_v33 (broadcastInDim S396000 ![] bcast_S_S396000 : (⟨S_, .i32⟩ : BufTy).Contents (Elt F) → (⟨S396000, .i32⟩ : BufTy).Contents (Elt F)),
    binary main_v3 main_v33 main_v34 (cmpi .slt : (⟨S396000, .i32⟩ : BufTy).Contents (Elt F) → (⟨S396000, .i32⟩ : BufTy).Contents (Elt F) → (⟨S396000, .i1⟩ : BufTy).Contents (Elt F)),
    nullary main_c_8 (constantI S_ 32 12000#32),
    unary main_c_8 main_v35 (broadcastInDim S396000 ![] bcast_S_S396000 : (⟨S_, .i32⟩ : BufTy).Contents (Elt F) → (⟨S396000, .i32⟩ : BufTy).Contents (Elt F)),
    binary main_v3 main_v35 main_v36 (addi : (⟨S396000, .i32⟩ : BufTy).Contents (Elt F) → (⟨S396000, .i32⟩ : BufTy).Contents (Elt F) → (⟨S396000, .i32⟩ : BufTy).Contents (Elt F)),
    ternary main_v34 main_v36 main_v3 main_v37 (select : (⟨S396000, .i1⟩ : BufTy).Contents (Elt F) → (⟨S396000, .i32⟩ : BufTy).Contents (Elt F) → (⟨S396000, .i32⟩ : BufTy).Contents (Elt F) → (⟨S396000, .i32⟩ : BufTy).Contents (Elt F)),
    unary main_v37 main_v38 (broadcastInDim S396000x1 ![0] bcast_S396000_S396000x1_0 : (⟨S396000, .i32⟩ : BufTy).Contents (Elt F) → (⟨S396000x1, .i32⟩ : BufTy).Contents (Elt F)),
    binary main_v32 main_v38 main_v39 ((fun x i => Host.gather gather_S12000x16_S396000x1_S396000x16_1_0_n_n_0_1_116 x i) : (⟨S12000x16, .f32⟩ : BufTy).Contents (Elt F) → (⟨S396000x1, .i32⟩ : BufTy).Contents (Elt F) → (⟨S396000x16, .f32⟩ : BufTy).Contents (Elt F)),
    unary main_v31 main_v40 (broadcastInDim S396000x1 ![0] bcast_S396000_S396000x1_0 : (⟨S396000, .f32⟩ : BufTy).Contents (Elt F) → (⟨S396000x1, .f32⟩ : BufTy).Contents (Elt F)),
    unary main_v40 main_v41 (broadcastInDim S396000x16 ![0, 1] bcast_S396000x1_S396000x16_0_1 : (⟨S396000x1, .f32⟩ : BufTy).Contents (Elt F) → (⟨S396000x16, .f32⟩ : BufTy).Contents (Elt F)),
    binary main_v39 main_v41 main_v42 (mulf : (⟨S396000x16, .f32⟩ : BufTy).Contents (Elt F) → (⟨S396000x16, .f32⟩ : BufTy).Contents (Elt F) → (⟨S396000x16, .f32⟩ : BufTy).Contents (Elt F)),
    nullary main_cst_9 (constant S_ .f32 0x00000000#32),
    unary main_cst_9 main_v43 (broadcastInDim S12000x16 ![] bcast_S_S12000x16 : (⟨S_, .f32⟩ : BufTy).Contents (Elt F) → (⟨S12000x16, .f32⟩ : BufTy).Contents (Elt F)),
    unary main_v6 main_v44 (broadcastInDim S396000x1 ![0] bcast_S396000_S396000x1_0 : (⟨S396000, .i32⟩ : BufTy).Contents (Elt F) → (⟨S396000x1, .i32⟩ : BufTy).Contents (Elt F)),
    ternary main_v43 main_v44 main_v42 main_v45 ((fun x i u => Host.scatterAdd scatter_S12000x16_S396000x1_S396000x16_1_0_0_1 x i u) : (⟨S12000x16, .f32⟩ : BufTy).Contents (Elt F) → (⟨S396000x1, .i32⟩ : BufTy).Contents (Elt F) → (⟨S396000x16, .f32⟩ : BufTy).Contents (Elt F) → (⟨S12000x16, .f32⟩ : BufTy).Contents (Elt F)),
    unary main_arg3 main_v46 (broadcastInDim S1x16 ![1] bcast_S16_S1x16_1 : (⟨S16, .f32⟩ : BufTy).Contents (Elt F) → (⟨S1x16, .f32⟩ : BufTy).Contents (Elt F)),
    unary main_v46 main_v47 (broadcastInDim S12000x16 ![0, 1] bcast_S1x16_S12000x16_0_1 : (⟨S1x16, .f32⟩ : BufTy).Contents (Elt F) → (⟨S12000x16, .f32⟩ : BufTy).Contents (Elt F)),
    binary main_v45 main_v47 main_v48 (addf : (⟨S12000x16, .f32⟩ : BufTy).Contents (Elt F) → (⟨S12000x16, .f32⟩ : BufTy).Contents (Elt F) → (⟨S12000x16, .f32⟩ : BufTy).Contents (Elt F)),
    TRef.nullary (.of main_call1_cst : TRef sig ⟨S_, .f32⟩) (constant S_ .f32 0x00000000#32),
    TRef.unary (.of main_call1_cst : TRef sig ⟨S_, .f32⟩) (.of main_call1_v0 : TRef sig ⟨S12000x16, .f32⟩) (broadcastInDim S12000x16 ![] bcast_S_S12000x16),
    TRef.binary (.of main_v48 : TRef sig ⟨S12000x16, .f32⟩) (.of main_call1_v0 : TRef sig ⟨S12000x16, .f32⟩) (.of main_v49 : TRef sig ⟨S12000x16, .f32⟩) maximumf,
    binary main_v49 main_arg4 main_v50 ((fun l r => Host.dotGeneral dot_S12000x16_S16x7_S12000x7_1_0_0_1_n_n none l r) : (⟨S12000x16, .f32⟩ : BufTy).Contents (Elt F) → (⟨S16x7, .f32⟩ : BufTy).Contents (Elt F) → (⟨S12000x7, .f32⟩ : BufTy).Contents (Elt F)),
    nullary main_c_10 (constantI S_ 32 0#32),
    unary main_c_10 main_v51 (broadcastInDim S396000 ![] bcast_S_S396000 : (⟨S_, .i32⟩ : BufTy).Contents (Elt F) → (⟨S396000, .i32⟩ : BufTy).Contents (Elt F)),
    binary main_v3 main_v51 main_v52 (cmpi .slt : (⟨S396000, .i32⟩ : BufTy).Contents (Elt F) → (⟨S396000, .i32⟩ : BufTy).Contents (Elt F) → (⟨S396000, .i1⟩ : BufTy).Contents (Elt F)),
    nullary main_c_11 (constantI S_ 32 12000#32),
    unary main_c_11 main_v53 (broadcastInDim S396000 ![] bcast_S_S396000 : (⟨S_, .i32⟩ : BufTy).Contents (Elt F) → (⟨S396000, .i32⟩ : BufTy).Contents (Elt F)),
    binary main_v3 main_v53 main_v54 (addi : (⟨S396000, .i32⟩ : BufTy).Contents (Elt F) → (⟨S396000, .i32⟩ : BufTy).Contents (Elt F) → (⟨S396000, .i32⟩ : BufTy).Contents (Elt F)),
    ternary main_v52 main_v54 main_v3 main_v55 (select : (⟨S396000, .i1⟩ : BufTy).Contents (Elt F) → (⟨S396000, .i32⟩ : BufTy).Contents (Elt F) → (⟨S396000, .i32⟩ : BufTy).Contents (Elt F) → (⟨S396000, .i32⟩ : BufTy).Contents (Elt F)),
    unary main_v55 main_v56 (broadcastInDim S396000x1 ![0] bcast_S396000_S396000x1_0 : (⟨S396000, .i32⟩ : BufTy).Contents (Elt F) → (⟨S396000x1, .i32⟩ : BufTy).Contents (Elt F)),
    binary main_v50 main_v56 main_v57 ((fun x i => Host.gather gather_S12000x7_S396000x1_S396000x7_1_0_n_n_0_1_17 x i) : (⟨S12000x7, .f32⟩ : BufTy).Contents (Elt F) → (⟨S396000x1, .i32⟩ : BufTy).Contents (Elt F) → (⟨S396000x7, .f32⟩ : BufTy).Contents (Elt F)),
    unary main_v31 main_v58 (broadcastInDim S396000x1 ![0] bcast_S396000_S396000x1_0 : (⟨S396000, .f32⟩ : BufTy).Contents (Elt F) → (⟨S396000x1, .f32⟩ : BufTy).Contents (Elt F)),
    unary main_v58 main_v59 (broadcastInDim S396000x7 ![0, 1] bcast_S396000x1_S396000x7_0_1 : (⟨S396000x1, .f32⟩ : BufTy).Contents (Elt F) → (⟨S396000x7, .f32⟩ : BufTy).Contents (Elt F)),
    binary main_v57 main_v59 main_v60 (mulf : (⟨S396000x7, .f32⟩ : BufTy).Contents (Elt F) → (⟨S396000x7, .f32⟩ : BufTy).Contents (Elt F) → (⟨S396000x7, .f32⟩ : BufTy).Contents (Elt F)),
    nullary main_cst_12 (constant S_ .f32 0x00000000#32),
    unary main_cst_12 main_v61 (broadcastInDim S12000x7 ![] bcast_S_S12000x7 : (⟨S_, .f32⟩ : BufTy).Contents (Elt F) → (⟨S12000x7, .f32⟩ : BufTy).Contents (Elt F)),
    unary main_v6 main_v62 (broadcastInDim S396000x1 ![0] bcast_S396000_S396000x1_0 : (⟨S396000, .i32⟩ : BufTy).Contents (Elt F) → (⟨S396000x1, .i32⟩ : BufTy).Contents (Elt F)),
    ternary main_v61 main_v62 main_v60 main_v63 ((fun x i u => Host.scatterAdd scatter_S12000x7_S396000x1_S396000x7_1_0_0_1 x i u) : (⟨S12000x7, .f32⟩ : BufTy).Contents (Elt F) → (⟨S396000x1, .i32⟩ : BufTy).Contents (Elt F) → (⟨S396000x7, .f32⟩ : BufTy).Contents (Elt F) → (⟨S12000x7, .f32⟩ : BufTy).Contents (Elt F)),
    unary main_arg5 main_v64 (broadcastInDim S1x7 ![1] bcast_S7_S1x7_1 : (⟨S7, .f32⟩ : BufTy).Contents (Elt F) → (⟨S1x7, .f32⟩ : BufTy).Contents (Elt F)),
    unary main_v64 main_v65 (broadcastInDim S12000x7 ![0, 1] bcast_S1x7_S12000x7_0_1 : (⟨S1x7, .f32⟩ : BufTy).Contents (Elt F) → (⟨S12000x7, .f32⟩ : BufTy).Contents (Elt F)),
    binary main_v63 main_v65 main_v66 (addf : (⟨S12000x7, .f32⟩ : BufTy).Contents (Elt F) → (⟨S12000x7, .f32⟩ : BufTy).Contents (Elt F) → (⟨S12000x7, .f32⟩ : BufTy).Contents (Elt F)),
    TRef.nullary (.of main_call2_cst : TRef sig ⟨S_, .f32⟩) (constant S_ .f32 0xFF800000#32),
    TRef.binary (.of main_v66 : TRef sig ⟨S12000x7, .f32⟩) (.of main_call2_cst : TRef sig ⟨S_, .f32⟩) (.of main_call2_v0 : TRef sig ⟨S12000, .f32⟩) (fun x v => Host.reduce FloatOps.maximumf x v reducesTo_S12000x7_S12000_d1 h_S_),
    TRef.nullary (.of main_call2_cst_0 : TRef sig ⟨S_, .f32⟩) (constant S_ .f32 0xFF800000#32),
    TRef.unary (.of main_call2_cst_0 : TRef sig ⟨S_, .f32⟩) (.of main_call2_v1 : TRef sig ⟨S12000, .f32⟩) (broadcastInDim S12000 ![] bcast_S_S12000),
    TRef.binary (.of main_call2_v1 : TRef sig ⟨S12000, .f32⟩) (.of main_call2_v0 : TRef sig ⟨S12000, .f32⟩) (.of main_call2_v2 : TRef sig ⟨S12000, .f32⟩) maximumf,
    TRef.unary (.of main_call2_v2 : TRef sig ⟨S12000, .f32⟩) (.of main_call2_v3 : TRef sig ⟨S12000x1, .f32⟩) (broadcastInDim S12000x1 ![0] bcast_S12000_S12000x1_0),
    TRef.unary (.of main_call2_v3 : TRef sig ⟨S12000x1, .f32⟩) (.of main_call2_v4 : TRef sig ⟨S12000x7, .f32⟩) (broadcastInDim S12000x7 ![0, 1] bcast_S12000x1_S12000x7_0_1),
    TRef.binary (.of main_v66 : TRef sig ⟨S12000x7, .f32⟩) (.of main_call2_v4 : TRef sig ⟨S12000x7, .f32⟩) (.of main_call2_v5 : TRef sig ⟨S12000x7, .f32⟩) subf,
    TRef.unary (.of main_call2_v5 : TRef sig ⟨S12000x7, .f32⟩) (.of main_call2_v6 : TRef sig ⟨S12000x7, .f32⟩) Host.exp,
    TRef.nullary (.of main_call2_cst_1 : TRef sig ⟨S_, .f32⟩) (constant S_ .f32 0x00000000#32),
    TRef.binary (.of main_call2_v6 : TRef sig ⟨S12000x7, .f32⟩) (.of main_call2_cst_1 : TRef sig ⟨S_, .f32⟩) (.of main_call2_v7 : TRef sig ⟨S12000, .f32⟩) (fun x v => Host.reduceAdd x v reducesTo_S12000x7_S12000_d1 h_S_),
    TRef.unary (.of main_call2_v7 : TRef sig ⟨S12000, .f32⟩) (.of main_call2_v8 : TRef sig ⟨S12000x1, .f32⟩) (broadcastInDim S12000x1 ![0] bcast_S12000_S12000x1_0),
    TRef.unary (.of main_call2_v8 : TRef sig ⟨S12000x1, .f32⟩) (.of main_call2_v9 : TRef sig ⟨S12000x1, .f32⟩) Host.log,
    TRef.unary (.of main_call2_v9 : TRef sig ⟨S12000x1, .f32⟩) (.of main_call2_v10 : TRef sig ⟨S12000x7, .f32⟩) (broadcastInDim S12000x7 ![0, 1] bcast_S12000x1_S12000x7_0_1),
    TRef.binary (.of main_call2_v5 : TRef sig ⟨S12000x7, .f32⟩) (.of main_call2_v10 : TRef sig ⟨S12000x7, .f32⟩) (.of main_v67 : TRef sig ⟨S12000x7, .f32⟩) subf,
    unary main_v66 main_v68 ((transpose S7x12000 [1, 0] · transposes_S12000x7_S7x12000_1_0) : (⟨S12000x7, .f32⟩ : BufTy).Contents (Elt F) → (⟨S7x12000, .f32⟩ : BufTy).Contents (Elt F)),
    binary main_v66 main_v68 main_v69 ((fun l r => Host.dotGeneral dot_S12000x7_S7x12000_S12000x12000_1_0_0_1_n_n none l r) : (⟨S12000x7, .f32⟩ : BufTy).Contents (Elt F) → (⟨S7x12000, .f32⟩ : BufTy).Contents (Elt F) → (⟨S12000x12000, .f32⟩ : BufTy).Contents (Elt F)) ]

-- 103 binds re-associated: the rewrite under the chain recurses once per statement
set_option maxRecDepth 8192 in
set_option maxHeartbeats 4000000 in
/-- @main is that straight line: its two windows and the three functions' definitions unfolded, both
    sides are one chain of single operations once sequencing is re-associated. -/
theorem main_eq (c : Dev nD) : main (F := F) c = seq ops := by
  simp only [main, main_part0, main_part1, fn_where.body, fn_relu.body, fn_log_softmax.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., binary_bufs_sub .., nullary_bufs_sub .., unary_bufs_sub ..,
    binary_bufs_sub .., unary_bufs_sub .., unary_bufs_sub .., binary_bufs_sub .., unary_bufs_sub .., nullary_bufs_sub ..,
    binary_bufs_sub .., unary_bufs_sub .., unary_bufs_sub .., unary_bufs_sub .., binary_bufs_sub .., unary_bufs_sub ..,
    binary_bufs_sub ..⟩

/-! ## The buffers after the operations

The fold of the operations' results over any contents, read at the two result buffers and at the six
arguments: each operation's result at its own buffer is its function of its operands' contents, at any
other buffer what was there; what is left is the printed operations composed, which the stages are by
unfolding. -/

set_option maxRecDepth 200000 in
set_option maxHeartbeats 41200000 in
/-- The first result is the row-wise log-softmax of the node embedding of the arguments. -/
theorem after_v67 (V : Valuation τ sig (Elt F)) :
    after ops V (Proc.devRef .tc main_v67) = Stages.logSoftmax (Stages.embedding (V (Proc.devRef .tc main_arg0)) (V (Proc.devRef .tc main_arg1)) (V (Proc.devRef .tc main_arg2)) (V (Proc.devRef .tc main_arg3)) (V (Proc.devRef .tc main_arg4)) (V (Proc.devRef .tc main_arg5))) := by
  after_results_simp <;> rfl

set_option maxRecDepth 200000 in
set_option maxHeartbeats 41200000 in
/-- The second result is the Gram matrix of the node embedding of the arguments. -/
theorem after_v69 (V : Valuation τ sig (Elt F)) :
    after ops V (Proc.devRef .tc main_v69) = Stages.gram (Stages.embedding (V (Proc.devRef .tc main_arg0)) (V (Proc.devRef .tc main_arg1)) (V (Proc.devRef .tc main_arg2)) (V (Proc.devRef .tc main_arg3)) (V (Proc.devRef .tc main_arg4)) (V (Proc.devRef .tc main_arg5))) := by
  after_results_simp <;> rfl

set_option maxRecDepth 200000 in
set_option maxHeartbeats 41200000 in
/-- No operation writes argument 0. -/
theorem after_arg0 (V : Valuation τ sig (Elt F)) :
    after ops V (Proc.devRef .tc main_arg0) = V (Proc.devRef .tc main_arg0) := by
  after_results_simp <;> rfl

set_option maxRecDepth 200000 in
set_option maxHeartbeats 41200000 in
/-- No operation writes argument 1. -/
theorem after_arg1 (V : Valuation τ sig (Elt F)) :
    after ops V (Proc.devRef .tc main_arg1) = V (Proc.devRef .tc main_arg1) := by
  after_results_simp <;> rfl

set_option maxRecDepth 200000 in
set_option maxHeartbeats 41200000 in
/-- No operation writes argument 2. -/
theorem after_arg2 (V : Valuation τ sig (Elt F)) :
    after ops V (Proc.devRef .tc main_arg2) = V (Proc.devRef .tc main_arg2) := by
  after_results_simp <;> rfl

set_option maxRecDepth 200000 in
set_option maxHeartbeats 41200000 in
/-- No operation writes argument 3. -/
theorem after_arg3 (V : Valuation τ sig (Elt F)) :
    after ops V (Proc.devRef .tc main_arg3) = V (Proc.devRef .tc main_arg3) := by
  after_results_simp <;> rfl

set_option maxRecDepth 200000 in
set_option maxHeartbeats 41200000 in
/-- No operation writes argument 4. -/
theorem after_arg4 (V : Valuation τ sig (Elt F)) :
    after ops V (Proc.devRef .tc main_arg4) = V (Proc.devRef .tc main_arg4) := by
  after_results_simp <;> rfl

set_option maxRecDepth 200000 in
set_option maxHeartbeats 41200000 in
/-- No operation writes argument 5. -/
theorem after_arg5 (V : Valuation τ sig (Elt F)) :
    after ops V (Proc.devRef .tc main_arg5) = V (Proc.devRef .tc main_arg5) := by
  after_results_simp <;> rfl

/-- On every device, for any float values, from any memory with zero counters: every weakly fair execution of
    @main terminates with the first result at the row-wise log-softmax of the node embedding of the arguments'
    launch contents, the second at the embedding's Gram matrix, and the six arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v67) = Stages.logSoftmax (Stages.embedding (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_v69) = Stages.gram (Stages.embedding (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v67).trans (after_v67 _), (h c main_v69).trans (after_v69 _),
      (h c main_arg0).trans (after_arg0 _), (h c main_arg1).trans (after_arg1 _), (h c main_arg2).trans (after_arg2 _),
      (h c main_arg3).trans (after_arg3 _), (h c main_arg4).trans (after_arg4 _), (h c main_arg5).trans (after_arg5 _)⟩)
    (run_seq scopedRefs_eq scopedSems_eq defs main (fun _ => ops) main_eq (fun _ => ops_sub) m ρ)

end Cert.ReferenceIdeal.HandRun

end
-- ==== Proof.lean ====
/-
  A two-layer graph convolution with an inner-product decoder, its decoder written as a tiled kernel region,
  against the same network written with plain array operations.

  Both programs compute the node embedding z (12000 nodes, 7 features) by the same host operations — the edge
  list extended by self-loops, the symmetric degree normalisation, two gather / scatter-add layers — and return
  the row-wise log-softmax of z and the matrix of inner products z zᵀ.  They differ in the last step only: the
  reference multiplies z by its transpose in one operation; the kernel walks a 6 × 6 grid of 2048 × 2048 output
  blocks (the last block of each axis cut to 1760, since 12000 is not a multiple of 2048), at each point fetching
  one block of rows of z for the block's rows and one for its columns, multiplying them into a zero accumulator,
  and writing the block back.

  With exact arithmetic the accumulated product of two blocks is, entry by entry, the sum over the seven features
  of the products of a row of each — the same sum the reference's product is — and the 36 cut blocks tile the
  output, so the two results are equal; no property of the inputs is used.  The frames: no host operation writes
  an argument, and the region writes only the product's array, whatever the floats' reading.  The ideal pass
  rewrote nothing in the kernel, so there is nothing to preserve.
-/
import proofs.«167786_j42322607735202_2_alg».proof.Defs
import proofs.«167786_j42322607735202_2_alg».proof.Proof.Gen.Kernel
import proofs.«167786_j42322607735202_2_alg».proof.Proof.Gen.KernelIdeal
import proofs.«167786_j42322607735202_2_alg».proof.Proof.Gen.ReferenceIdeal
import proofs.«167786_j42322607735202_2_alg».proof.Proof.Gen.Pre_finite_inputs
import proofs.«167786_j42322607735202_2_alg».proof.Proof.KSharedRun
import proofs.«167786_j42322607735202_2_alg».proof.Proof.SharedRun
import proofs.«167786_j42322607735202_2_alg».proof.Proof.Bridge
import proofs.«167786_j42322607735202_2_alg».proof.Proof.RefRun
import Idealize.ShloMosaic.Adequacy
import Idealize.ShloMosaic.Init

noncomputable section

namespace Cert.Proof

open Idealize.ShloMosaic Idealize.ShloMosaic.TcCoe Idealize.SL.Sem

/-- The kernel as printed runs to its end and leaves its arguments unchanged. -/
theorem frame_kernel : Cert.frame_Kernel (hKernel := Cert.Kernel.Gen.facts) (hPre_finite_inputs := Cert.Pre_finite_inputs.Gen.facts) :=
  fun m ρ _ => Cert.Kernel.SharedRun.frame m ρ

/-- So does its reading with exact arithmetic. -/
theorem frame_kernelIdeal : Cert.frame_KernelIdeal (hKernelIdeal := Cert.KernelIdeal.Gen.facts) (hPre_finite_inputs := Cert.Pre_finite_inputs.Gen.facts) :=
  fun m ρ _ => Cert.KernelIdeal.SharedRun.frame m ρ

/-- The reference runs to its end and leaves its arguments unchanged: its run, the two results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.HandRun.run (F := Ideal) m ρ)

/-- The ideal pass rewrote no operation of the kernel. -/
theorem preserves : Cert.preserves_Kernel_KernelIdeal := trivial

/-- With exact arithmetic and agreeing arguments both programs end with the log-softmax of the one embedding and
    with its Gram matrix. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Entry.V m c Cert.KernelIdeal.main_v67, fun c => Cert.KernelIdeal.GramRun.G (Cert.KernelIdeal.Entry.V m) c,
    Cert.KernelIdeal.Bridge.kernel_run m ρ, ?_⟩
  refine (θ_run Cert.ReferenceIdeal.defs _ _).mono (fun r h c => ⟨(h c).1.trans ?_, (h c).2.1.trans ?_, (h c).2.2⟩)
    (Cert.ReferenceIdeal.HandRun.run (F := Ideal) m' ρ')
  · rw [(hagree c).1, (hagree c).2.1, (hagree c).2.2.1, (hagree c).2.2.2.1, (hagree c).2.2.2.2.1, (hagree c).2.2.2.2.2]
    exact (Cert.KernelIdeal.HostTerm.V_logSoftmax m c).symm
  · rw [(hagree c).1, (hagree c).2.1, (hagree c).2.2.1, (hagree c).2.2.2.1, (hagree c).2.2.2.2.1, (hagree c).2.2.2.2.2]
    exact Cert.KernelIdeal.Bridge.gram_eq m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
